-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x66 : Shape := ⟨2, ![100000, 66]⟩
abbrev S2x1600000 : Shape := ⟨2, ![2, 1600000]⟩
abbrev S66x128 : Shape := ⟨2, ![66, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S10x32 : Shape := ⟨2, ![10, 32]⟩
abbrev S32 : Shape := ⟨1, ![32]⟩
abbrev S96x64 : Shape := ⟨2, ![96, 64]⟩
abbrev S64x1 : Shape := ⟨2, ![64, 1]⟩
abbrev S1 : Shape := ⟨1, ![1]⟩
abbrev S_ : Shape := ⟨0, ![]⟩

class Facts : Prop where
  bcast_S_S100000x66 : S_.BroadcastsInDim S100000x66 (![] : Fin 0 → Fin S100000x66.rank)
  reducesTo_S100000x66_S_d0_1 : S100000x66.ReducesTo [0, 1] S_
  h_S_ : 0 < S_.numel
  bcast_S_S66x128 : S_.BroadcastsInDim S66x128 (![] : Fin 0 → Fin S66x128.rank)
  reducesTo_S66x128_S_d0_1 : S66x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S10x32 : S_.BroadcastsInDim S10x32 (![] : Fin 0 → Fin S10x32.rank)
  reducesTo_S10x32_S_d0_1 : S10x32.ReducesTo [0, 1] S_
  bcast_S_S32 : S_.BroadcastsInDim S32 (![] : Fin 0 → Fin S32.rank)
  reducesTo_S32_S_d0 : S32.ReducesTo [0] S_
  bcast_S_S96x64 : S_.BroadcastsInDim S96x64 (![] : Fin 0 → Fin S96x64.rank)
  reducesTo_S96x64_S_d0_1 : S96x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S10x32 .f32) (main_arg9 : FVec F S32 .f32) (main_arg10 : FVec F S96x64 .f32) (main_arg11 : FVec F S64 .f32) (main_arg12 : FVec F S64x1 .f32) (main_arg13 : FVec F S1 .f32) (main_v33 : IVec S_ 1) : IVec S_ 1 :=
  let main_v34 : FVec F S10x32 .f32 := Host.absf main_arg8
  let main_cst_12 : FVec F S_ .f32 := constant S_ .f32 0x7F800000#32
  let main_v35 : FVec F S10x32 .f32 := broadcastInDim S10x32 ![] bcast_S_S10x32 main_cst_12
  let main_v36 : IVec S10x32 1 := cmpf .olt main_v34 main_v35
  let main_c_13 : IVec S_ 1 := constantI S_ 1 1#1
  let main_v37 : IVec S_ 1 := (fun x v => Host.reduce IntOp.andi x v reducesTo_S10x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S96x64 .f32 := Host.absf main_arg10
  let main_cst_16 : FVec F S_ .f32 := constant S_ .f32 0x7F800000#32
  let main_v45 : FVec F S96x64 .f32 := broadcastInDim S96x64 ![] bcast_S_S96x64 main_cst_16
  let main_v46 : IVec S96x64 1 := cmpf .olt main_v44 main_v45
  let main_c_17 : IVec S_ 1 := constantI S_ 1 1#1
  let main_v47 : IVec S_ 1 := (fun x v => Host.reduce IntOp.andi x v reducesTo_S96x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S128 .f32) (main_arg6 : FVec F S128x64 .f32) (main_arg7 : FVec F S64 .f32) (main_arg8 : FVec F S10x32 .f32) (main_arg9 : FVec F S32 .f32) (main_arg10 : FVec F S96x64 .f32) (main_arg11 : FVec F S64 .f32) (main_arg12 : FVec F S64x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x66 .f32) (main_arg1 : IVec S2x1600000 32) (main_arg2 : FVec F S66x128 .f32) (main_arg3 : FVec F S128 .f32) (main_arg4 : FVec F S128x128 .f32) (main_arg5 : FVec F S128 .f32) (main_arg6 : FVec F S128x64 .f32) (main_arg7 : FVec F S64 .f32) (main_arg8 : FVec F S10x32 .f32) (main_arg9 : FVec F S32 .f32) (main_arg10 : FVec F S96x64 .f32) (main_arg11 : FVec F S64 .f32) (main_arg12 : FVec F S64x1 .f32) (main_arg13 : FVec F S1 .f32) : IVec S_ 1 :=
  let main_v0 : FVec F S100000x66 .f32 := Host.absf main_arg0
  let main_cst : FVec F S_ .f32 := constant S_ .f32 0x7F800000#32
  let main_v1 : FVec F S100000x66 .f32 := broadcastInDim S100000x66 ![] bcast_S_S100000x66 main_cst
  let main_v2 : IVec S100000x66 1 := cmpf .olt main_v0 main_v1
  let main_c : IVec S_ 1 := constantI S_ 1 1#1
  let main_v3 : IVec S_ 1 := (fun x v => Host.reduce IntOp.andi x v reducesTo_S100000x66_S_d0_1 h_S_) main_v2 main_c
  let main_v4 : FVec F S66x128 .f32 := Host.absf main_arg2
  let main_cst_0 : FVec F S_ .f32 := constant S_ .f32 0x7F800000#32
  let main_v5 : FVec F S66x128 .f32 := broadcastInDim S66x128 ![] bcast_S_S66x128 main_cst_0
  let main_v6 : IVec S66x128 1 := cmpf .olt main_v4 main_v5
  let main_c_1 : IVec S_ 1 := constantI S_ 1 1#1
  let main_v7 : IVec S_ 1 := (fun x v => Host.reduce IntOp.andi x v reducesTo_S66x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S100000x66 : Shape := ⟨2, ![100000, 66]⟩
abbrev S2x1600000 : Shape := ⟨2, ![2, 1600000]⟩
abbrev S66x128 : Shape := ⟨2, ![66, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S10x32 : Shape := ⟨2, ![10, 32]⟩
abbrev S32 : Shape := ⟨1, ![32]⟩
abbrev S96x64 : Shape := ⟨2, ![96, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x66 : Shape := ⟨2, ![10000, 66]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S100000x10 : Shape := ⟨2, ![100000, 10]⟩
abbrev S64x64 : Shape := ⟨2, ![64, 64]⟩
abbrev S32x64 : Shape := ⟨2, ![32, 64]⟩
abbrev S1x32 : Shape := ⟨2, ![1, 32]⟩
abbrev S1x1 : Shape := ⟨2, ![1, 1]⟩
abbrev S100000x1 : Shape := ⟨2, ![100000, 1]⟩
abbrev S10000x10 : Shape := ⟨2, ![10000, 10]⟩
abbrev S10000x1 : Shape := ⟨2, ![10000, 1]⟩
abbrev S10000x32 : Shape := ⟨2, ![10000, 32]⟩

abbrev nBuf : Space → Nat
  | .hbm => 117
  | .vmem => 43
  | .smem => 0
  | _ => 0

abbrev bufTy : (tb : Table) → Fin (tcTables nBuf tb) → BufTy
  | .hbm, ⟨0, _⟩ => ⟨S100000x66, .f32⟩
  | .hbm, ⟨1, _⟩ => ⟨S2x1600000, .i32⟩
  | .hbm, ⟨2, _⟩ => ⟨S66x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S10x32, .f32⟩
  | .hbm, ⟨9, _⟩ => ⟨S32, .f32⟩
  | .hbm, ⟨10, _⟩ => ⟨S96x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S100000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S1x1600000, .i32⟩
  | .hbm, ⟨19, _⟩ => ⟨S1600000, .i32⟩
  | .hbm, ⟨20, _⟩ => ⟨S1700000, .i32⟩
  | .hbm, ⟨21, _⟩ => ⟨S_, .f32⟩
  | .hbm, ⟨22, _⟩ => ⟨S1700000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S1700000x1, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x64, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x64, .f32⟩
  | .hbm, ⟨102, _⟩ => ⟨S1700000x64, .f32⟩
  | .hbm, ⟨103, _⟩ => ⟨S_, .f32⟩
  | .hbm, ⟨104, _⟩ => ⟨S100000x64, .f32⟩
  | .hbm, ⟨105, _⟩ => ⟨S1700000x1, .i32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x10, .f32⟩
  | .hbm, ⟨110, _⟩ => ⟨S64x64, .f32⟩
  | .hbm, ⟨111, _⟩ => ⟨S32x64, .f32⟩
  | .hbm, ⟨112, _⟩ => ⟨S1x32, .f32⟩
  | .hbm, ⟨113, _⟩ => ⟨S1x64, .f32⟩
  | .hbm, ⟨114, _⟩ => ⟨S1x1, .f32⟩
  | .hbm, ⟨115, _⟩ => ⟨S100000x1, .f32⟩
  | .hbm, ⟨116, _⟩ => ⟨S100000, .f32⟩
  | .local _ .vmem, ⟨0, _⟩ => ⟨S10000x66, .f32⟩
  | .local _ .vmem, ⟨1, _⟩ => ⟨S10000x66, .f32⟩
  | .local _ .vmem, ⟨2, _⟩ => ⟨S66x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x10, .f32⟩
  | .local _ .vmem, ⟨31, _⟩ => ⟨S10000x10, .f32⟩
  | .local _ .vmem, ⟨32, _⟩ => ⟨S10000x64, .f32⟩
  | .local _ .vmem, ⟨33, _⟩ => ⟨S10000x64, .f32⟩
  | .local _ .vmem, ⟨34, _⟩ => ⟨S10x32, .f32⟩
  | .local _ .vmem, ⟨35, _⟩ => ⟨S1x32, .f32⟩
  | .local _ .vmem, ⟨36, _⟩ => ⟨S64x64, .f32⟩
  | .local _ .vmem, ⟨37, _⟩ => ⟨S32x64, .f32⟩
  | .local _ .vmem, ⟨38, _⟩ => ⟨S1x64, .f32⟩
  | .local _ .vmem, ⟨39, _⟩ => ⟨S64x1, .f32⟩
  | .local _ .vmem, ⟨40, _⟩ => ⟨S1x1, .f32⟩
  | .local _ .vmem, ⟨41, _⟩ => ⟨S10000x1, .f32⟩
  | .local _ .vmem, ⟨42, _⟩ => ⟨S10000x1, .f32⟩
  | _, _ => ⟨S100000x66, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc6_stg4_0 : Ref sig .tc := ⟨.vmem, 36, rfl⟩
abbrev cc6_stg5_0 : Ref sig .tc := ⟨.vmem, 37, rfl⟩
abbrev cc6_stg6_0 : Ref sig .tc := ⟨.vmem, 38, rfl⟩
abbrev cc6_stg7_0 : Ref sig .tc := ⟨.vmem, 39, rfl⟩
abbrev cc6_stg8_0 : Ref sig .tc := ⟨.vmem, 40, rfl⟩
abbrev cc6_stg9_0 : Ref sig .tc := ⟨.vmem, 41, rfl⟩
abbrev cc6_stg9_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35
abbrev cc6_sem4_0 : DmaSem sig := 36
abbrev cc6_sem5_0 : DmaSem sig := 37
abbrev cc6_sem6_0 : DmaSem sig := 38
abbrev cc6_sem7_0 : DmaSem sig := 39
abbrev cc6_sem8_0 : DmaSem sig := 40
abbrev cc6_sem9_0 : DmaSem sig := 41
abbrev cc6_sem9_1 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x66 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S66x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x10 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S10x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S10000x1 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x66_S10000x66_0_0 : ∀ a, (![0, 0] : Fin 2 → Nat) a + S10000x66.size a ≤ S10000x66.size a
  h_S10000x66 : 0 < S10000x66.numel
  bitsLt_bf16_f32 : FTy.bits .bf16 < FTy.bits .f32
  inb_S66x128_S66x128_0_0 : ∀ a, (![0, 0] : Fin 2 → Nat) a + S66x128.size a ≤ S66x128.size a
  h_S66x128 : 0 < S66x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S100000x66_S100000x10_0_56 : S100000x66.Slices ![0, 56] S100000x10
  slices_S96x64_S64x64_0_0 : S96x64.Slices ![0, 0] S64x64
  slices_S96x64_S32x64_64_0 : S96x64.Slices ![64, 0] S32x64
  shapeCasts_S32_S1x32 : S32.ShapeCasts S1x32
  shapeCasts_S1_S1x1 : S1.ShapeCasts S1x1
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  inb_S10x32_S10x32_0_0 : ∀ a, (![0, 0] : Fin 2 → Nat) a + S10x32.size a ≤ S10x32.size a
  h_S10x32 : 0 < S10x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x66_S66x128_S10000x128_1_0_0_1_n_n_wf : DotDims.WF S10000x66 S66x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x10_S10x32_S10000x32_1_0_0_1_n_n_wf : DotDims.WF S10000x10 S10x32 S10000x32 [1] [0] [0] [1] [] []
  dot_S10000x64_S64x64_S10000x64_1_0_0_1_n_n_wf : DotDims.WF S10000x64 S64x64 S10000x64 [1] [0] [0] [1] [] []
  dot_S10000x32_S32x64_S10000x64_1_0_0_1_n_n_wf : DotDims.WF S10000x32 S32x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x66.size a ≤ S100000x66.size a
  hwx0_0 : ∀ i : grid0.Coords, EltTy.bits .f32 = 32 ∨ (Rect.block (s := S100000x66) S10000x66.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S66x128.size a ≤ S66x128.size a
  hwx0_1 : ∀ i : grid0.Coords, EltTy.bits .f32 = 32 ∨ (Rect.block (s := S66x128) S66x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x10.size a ≤ S100000x10.size a
  hwx6_0 : ∀ i : grid6.Coords, EltTy.bits .f32 = 32 ∨ (Rect.block (s := S100000x10) S10000x10.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S10x32.size a ≤ S10x32.size a
  hwx6_2 : ∀ i : grid6.Coords, EltTy.bits .f32 = 32 ∨ (Rect.block (s := S10x32) S10x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x32.size a ≤ S1x32.size a
  hwx6_3 : ∀ i : grid6.Coords, EltTy.bits .f32 = 32 ∨ (Rect.block (s := S1x32) S1x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x64.size a ≤ S32x64.size a
  hwx6_5 : ∀ i : grid6.Coords, EltTy.bits .f32 = 32 ∨ (Rect.block (s := S32x64) S32x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x1.size a ≤ S64x1.size a
  hwx6_7 : ∀ i : grid6.Coords, EltTy.bits .f32 = 32 ∨ (Rect.block (s := S64x1) S64x1.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x1.size a ≤ S1x1.size a
  hwx6_8 : ∀ i : grid6.Coords, EltTy.bits .f32 = 32 ∨ (Rect.block (s := S1x1) S1x1.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S10000x1.size a ≤ S100000x1.size a
  hwx6_9 : ∀ i : grid6.Coords, EltTy.bits .f32 = 32 ∨ (Rect.block (s := S100000x1) S10000x1.size (cc6_transform_9 i) (hinb6_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x66_S66x128_S10000x128_1_0_0_1_n_n : DotDims S10000x66 S66x128 S10000x128 where
  lhsContracting := [1]
  rhsContracting := [0]
  lhsNonContracting := [0]
  rhsNonContracting := [1]
  lhsBatch := []
  rhsBatch := []
  wf := dot_S10000x66_S66x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x10_S10x32_S10000x32_1_0_0_1_n_n : DotDims S10000x10 S10x32 S10000x32 where
  lhsContracting := [1]
  rhsContracting := [0]
  lhsNonContracting := [0]
  rhsNonContracting := [1]
  lhsBatch := []
  rhsBatch := []
  wf := dot_S10000x10_S10x32_S10000x32_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x66.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S66x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S10000x10.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg8) S10x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S1x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v78) S32x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v80) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg12) S64x1.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v81) S1x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v82) S10000x1.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

class Facts : Prop extends Facts₀ where

variable [Facts]
-- ==== ReferenceIdeal.lean ====
abbrev S100000x66 : Shape := ⟨2, ![100000, 66]⟩
abbrev S2x1600000 : Shape := ⟨2, ![2, 1600000]⟩
abbrev S66x128 : Shape := ⟨2, ![66, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S10x32 : Shape := ⟨2, ![10, 32]⟩
abbrev S32 : Shape := ⟨1, ![32]⟩
abbrev S96x64 : Shape := ⟨2, ![96, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x10 : Shape := ⟨2, ![100000, 10]⟩
abbrev S100000x32 : Shape := ⟨2, ![100000, 32]⟩
abbrev S1x32 : Shape := ⟨2, ![1, 32]⟩
abbrev S100000x96 : Shape := ⟨2, ![100000, 96]⟩
abbrev S100000x1 : Shape := ⟨2, ![100000, 1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S100000x66, .f32⟩
  | 1 => ⟨S2x1600000, .i32⟩
  | 2 => ⟨S66x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S10x32, .f32⟩
  | 9 => ⟨S32, .f32⟩
  | 10 => ⟨S96x64, .f32⟩
  | 11 => ⟨S64, .f32⟩
  | 12 => ⟨S64x1, .f32⟩
  | 13 => ⟨S1, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x64, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x1, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x10, .f32⟩
  | 124 => ⟨S100000x32, .f32⟩
  | 125 => ⟨S1x32, .f32⟩
  | 126 => ⟨S100000x32, .f32⟩
  | 127 => ⟨S100000x32, .f32⟩
  | _ => ⟨S100000x66, .f32⟩

abbrev hbmTy0_1 (i : Nat) : BufTy := match i % 128 with
  | 0 => ⟨S_, .f32⟩
  | 1 => ⟨S100000x32, .f32⟩
  | 2 => ⟨S100000x32, .f32⟩
  | 3 => ⟨S100000x96, .f32⟩
  | 4 => ⟨S100000x64, .f32⟩
  | 5 => ⟨S1x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S100000x1, .f32⟩
  | 12 => ⟨S1x1, .f32⟩
  | 13 => ⟨S100000x1, .f32⟩
  | 14 => ⟨S100000x1, .f32⟩
  | 15 => ⟨S100000x1, .f32⟩
  | 16 => ⟨S100000x1, .f32⟩
  | 17 => ⟨S_, .f32⟩
  | 18 => ⟨S100000x1, .f32⟩
  | 19 => ⟨S100000x1, .f32⟩
  | 20 => ⟨S_, .f32⟩
  | 21 => ⟨S100000x1, .f32⟩
  | 22 => ⟨S100000x1, .f32⟩
  | 23 => ⟨S100000, .f32⟩
  | _ => ⟨S100000x66, .f32⟩

abbrev hbmTy (i : Nat) : BufTy := match i / 128 with
  | 0 => hbmTy0_0 i
  | 1 => hbmTy0_1 i
  | _ => ⟨S100000x66, .f32⟩

abbrev bufTy : (tb : Table) → Fin (tcTables nBuf tb) → BufTy
  | .hbm, ⟨i, _⟩ => hbmTy i
  | _, _ => ⟨S100000x66, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_cst : Ref sig .tc := ⟨.hbm, 97, rfl⟩
abbrev main_call2_v0 : Ref sig .tc := ⟨.hbm, 98, rfl⟩
abbrev main_v65 : Ref sig .tc := ⟨.hbm, 99, rfl⟩
abbrev main_v66 : Ref sig .tc := ⟨.hbm, 100, rfl⟩
abbrev main_c_12 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_call3_cst : Ref sig .tc := ⟨.hbm, 120, rfl⟩
abbrev main_call3_v0 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call4_cst : Ref sig .tc := ⟨.hbm, 128, rfl⟩
abbrev main_call4_v0 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call5_cst : Ref sig .tc := ⟨.hbm, 136, rfl⟩
abbrev main_call5_v0 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_15 : Ref sig .tc := ⟨.hbm, 145, rfl⟩
abbrev main_v102 : Ref sig .tc := ⟨.hbm, 146, rfl⟩
abbrev main_v103 : Ref sig .tc := ⟨.hbm, 147, rfl⟩
abbrev main_cst_16 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S100000x66_S100000x10_0_56 : S100000x66.Slices ![0, 56] S100000x10
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  concatenates_S100000x64_S100000x32_S100000x96_d1 : Shape.Concatenates [S100000x64, S100000x32] S100000x96 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x66_S66x128_S100000x128_1_0_0_1_n_n_wf : DotDims.WF S100000x66 S66x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x10_S10x32_S100000x32_1_0_0_1_n_n_wf : DotDims.WF S100000x10 S10x32 S100000x32 [1] [0] [0] [1] [] []
  dot_S100000x96_S96x64_S100000x64_1_0_0_1_n_n_wf : DotDims.WF S100000x96 S96x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x66_S66x128_S100000x128_1_0_0_1_n_n : DotDims S100000x66 S66x128 S100000x128 where
  lhsContracting := [1]
  rhsContracting := [0]
  lhsNonContracting := [0]
  rhsNonContracting := [1]
  lhsBatch := []
  rhsBatch := []
  wf := dot_S100000x66_S66x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x10_S10x32_S100000x32_1_0_0_1_n_n : DotDims S100000x10 S10x32 S100000x32 where
  lhsContracting := [1]
  rhsContracting := [0]
  lhsNonContracting := [0]
  rhsNonContracting := [1]
  lhsBatch := []
  rhsBatch := []
  wf := dot_S100000x10_S10x32_S100000x32_1_0_0_1_n_n_wf
def dot_S100000x96_S96x64_S100000x64_1_0_0_1_n_n : DotDims S100000x96 S96x64 S100000x64 where
  lhsContracting := [1]
  rhsContracting := [0]
  lhsNonContracting := [0]
  rhsNonContracting := [1]
  lhsBatch := []
  rhsBatch := []
  wf := dot_S100000x96_S96x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its result named.

  The frame of the program states only that the argument arrays end as launched. The same launch argument — the
  fifteen segments of @main run in order, each from the buffer contents its predecessor leaves — also says what every
  unscoped buffer holds in the final state: the last boundary's contents `W15`, the fold of the host stretches and the
  regions' write-backs over the launch memory. Read at the result buffer it gives the run whose postcondition names
  the result as `W15 m ρ c main_v83`; the value modules say which function of the arguments that is.
-/
import proofs.«132266_j64192581206382_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument arrays as launched. -/
theorem run_named : θ_run defs (onTc (τ := τ) (main (F := F))) ⟨m, fun _ => 0, ρ⟩ (fun r => ∀ c : Dev nD,
      r.2.mem ((c.tc : Thread nD τ).loc main_v83) = W15 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v83 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c)⟩)

end Cert.KernelIdeal.Named

end
-- ==== Proof.KernelKeep.lean ====
/-
  Buffers that nothing writes, read through the fold of @main's segments.

  The contents of the kernel program's buffers at each boundary between its segments are a fold over the launch
  memory: a host stretch changes exactly the buffers its operations write, a region exactly its windows' arrays (an
  input window's array to what it already held). So a buffer that no operation between two boundaries writes, and
  that is no output of a region between them, holds at the later boundary what it held at the earlier one. The facts
  below walk the fold back, one segment at a time, for the buffers the value proof reads: the argument arrays where a
  host stretch or a region consumes them, and the three arrays computed once from the edge list (the sources, the
  targets and the per-edge factor) at the entry of each of the three gather / scatter stretches.
-/
import proofs.«132266_j64192581206382_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- One host stretch back: the buffer on the left is written by none of the stretch's operations. -/
macro "host_step" : tactic => `(tactic|
  refine (StableHlo.after_of_forall_not_mem _ _ (List.forall_iff_forall_mem.mp (by
    simp only [hostOps0, hostOps0_1, hostOps0_2, hostOps1, hostOps3, hostOps5, hostOps6, hostOps7, List.flatten_cons,
      List.flatten_nil, List.append_nil, List.cons_append, List.nil_append, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans ?_)

/-- Region 6 back: the buffer on the left is none of its arrays. -/
macro "back14" : tactic => `(tactic| refine (W14_of_ne _ _ _ _ (by decide)).trans ?_)
/-- Region 5 back: the buffer on the left is none of its arrays. -/
macro "back12" : tactic => `(tactic| refine (W12_of_ne _ _ _ _ (by decide)).trans ?_)
/-- Region 4 back: the buffer on the left is none of its arrays. -/
macro "back10" : tactic => `(tactic| refine (W10_of_ne _ _ _ _ (by decide)).trans ?_)
/-- Region 3 back: the buffer on the left is none of its arrays. -/
macro "back9" : tactic => `(tactic| refine (W9_of_ne _ _ _ _ (by decide)).trans ?_)
/-- Region 2 back: the buffer on the left is none of its arrays. -/
macro "back7" : tactic => `(tactic| refine (W7_of_ne _ _ _ _ (by decide)).trans ?_)
/-- Region 1 back: the buffer on the left is none of its arrays. -/
macro "back6" : tactic => `(tactic| refine (W6_of_ne _ _ _ _ (by decide)).trans ?_)
/-- Region 0 back: the buffer on the left is none of its arrays. -/
macro "back4" : tactic => `(tactic| refine (W4_of_ne _ _ _ _ (by decide)).trans ?_)

/-! ## The buffers the value proof reads, at the boundaries where it reads them -/

theorem W3_arg0 : W3 m ρ c (Proc.devRef .tc main_arg0) = m ((c : Thread nD τ).loc main_arg0) := by
  host_step; host_step; host_step; rfl
theorem W3_arg2 : W3 m ρ c (Proc.devRef .tc main_arg2) = m ((c : Thread nD τ).loc main_arg2) := by
  host_step; host_step; host_step; rfl
theorem W4_v3 : W4 m ρ c (Proc.devRef .tc main_v3) = W1 m ρ c (Proc.devRef .tc main_v3) := by
  back4; host_step; host_step; rfl
theorem W4_v6 : W4 m ρ c (Proc.devRef .tc main_v6) = W1 m ρ c (Proc.devRef .tc main_v6) := by
  back4; host_step; host_step; rfl
theorem W4_v30 : W4 m ρ c (Proc.devRef .tc main_v30) = W3 m ρ c (Proc.devRef .tc main_v30) := by
  back4; rfl
theorem W4_arg3 : W4 m ρ c (Proc.devRef .tc main_arg3) = m ((c : Thread nD τ).loc main_arg3) := by
  back4; host_step; host_step; host_step; rfl
theorem W6_arg4 : W6 m ρ c (Proc.devRef .tc main_arg4) = m ((c : Thread nD τ).loc main_arg4) := by
  back6; host_step; back4; host_step; host_step; host_step; rfl
theorem W7_v3 : W7 m ρ c (Proc.devRef .tc main_v3) = W1 m ρ c (Proc.devRef .tc main_v3) := by
  back7; back6; host_step; back4; host_step; host_step; rfl
theorem W7_v6 : W7 m ρ c (Proc.devRef .tc main_v6) = W1 m ρ c (Proc.devRef .tc main_v6) := by
  back7; back6; host_step; back4; host_step; host_step; rfl
theorem W7_v30 : W7 m ρ c (Proc.devRef .tc main_v30) = W3 m ρ c (Proc.devRef .tc main_v30) := by
  back7; back6; host_step; back4; rfl
theorem W7_arg5 : W7 m ρ c (Proc.devRef .tc main_arg5) = m ((c : Thread nD τ).loc main_arg5) := by
  back7; back6; host_step; back4; host_step; host_step; host_step; rfl
theorem W9_arg6 : W9 m ρ c (Proc.devRef .tc main_arg6) = m ((c : Thread nD τ).loc main_arg6) := by
  back9; host_step; back7; back6; host_step; back4; host_step; host_step; host_step; rfl
theorem W10_v3 : W10 m ρ c (Proc.devRef .tc main_v3) = W1 m ρ c (Proc.devRef .tc main_v3) := by
  back10; back9; host_step; back7; back6; host_step; back4; host_step; host_step; rfl
theorem W10_v6 : W10 m ρ c (Proc.devRef .tc main_v6) = W1 m ρ c (Proc.devRef .tc main_v6) := by
  back10; back9; host_step; back7; back6; host_step; back4; host_step; host_step; rfl
theorem W10_v30 : W10 m ρ c (Proc.devRef .tc main_v30) = W3 m ρ c (Proc.devRef .tc main_v30) := by
  back10; back9; host_step; back7; back6; host_step; back4; rfl
theorem W10_arg7 : W10 m ρ c (Proc.devRef .tc main_arg7) = m ((c : Thread nD τ).loc main_arg7) := by
  back10; back9; host_step; back7; back6; host_step; back4; host_step; host_step; host_step; rfl
theorem W12_arg0 : W12 m ρ c (Proc.devRef .tc main_arg0) = m ((c : Thread nD τ).loc main_arg0) := by
  back12; host_step; back10; back9; host_step; back7; back6; host_step; refine ((W4_arr m ρ c 0).trans (((dat0 (V3 m ρ) c).arrAt_in 0 rfl _).trans (A_eq0 (V3 m ρ) c 0))).trans ?_; host_step; host_step; host_step; rfl
theorem W12_arg9 : W12 m ρ c (Proc.devRef .tc main_arg9) = m ((c : Thread nD τ).loc main_arg9) := by
  back12; host_step; back10; back9; host_step; back7; back6; host_step; back4; host_step; host_step; host_step; rfl
theorem W12_arg10 : W12 m ρ c (Proc.devRef .tc main_arg10) = m ((c : Thread nD τ).loc main_arg10) := by
  back12; host_step; back10; back9; host_step; back7; back6; host_step; back4; host_step; host_step; host_step; rfl
theorem W12_arg11 : W12 m ρ c (Proc.devRef .tc main_arg11) = m ((c : Thread nD τ).loc main_arg11) := by
  back12; host_step; back10; back9; host_step; back7; back6; host_step; back4; host_step; host_step; host_step; rfl
theorem W12_arg13 : W12 m ρ c (Proc.devRef .tc main_arg13) = m ((c : Thread nD τ).loc main_arg13) := by
  back12; host_step; back10; back9; host_step; back7; back6; host_step; back4; host_step; host_step; host_step; rfl
theorem W13_v75 : W13 m ρ c (Proc.devRef .tc main_v75) = W12 m ρ c (Proc.devRef .tc main_v75) := by
  host_step; rfl
theorem W13_arg8 : W13 m ρ c (Proc.devRef .tc main_arg8) = m ((c : Thread nD τ).loc main_arg8) := by
  host_step; back12; host_step; back10; back9; host_step; back7; back6; host_step; back4; host_step; host_step; host_step; rfl
theorem W13_arg12 : W13 m ρ c (Proc.devRef .tc main_arg12) = m ((c : Thread nD τ).loc main_arg12) := by
  host_step; back12; host_step; back10; back9; host_step; back7; back6; host_step; back4; host_step; host_step; host_step; rfl

end Cert.KernelIdeal.Fold

end
-- ==== Proof.Spec.lean ====
/-
  The arithmetic of the network, entry by entry, over the extended reals.

  Three functions of whole arrays, each given by its value at an index (row, column):
    • `mm x w`       — the matrix product: entry (p, q) is the sum over d of x (p, d) · w (d, q);
    • `biasRelu x r` — a one-row array r added to every row of x, then the maximum with zero;
    • `head …`       — the dense head of the network on a block of rows: a projection of ten features followed by bias
                        and clamp, the product of the concatenation [h, projection] with the fusion weights written as
                        the sum of the two partial products, bias and clamp, the product with the one-column
                        regression weights, bias, and the logistic function.
  The zero of the clamp is kept as the word 0x00000000 read as a float: the same word on both sides of every
  equation below, never evaluated.
-/
import Idealize.ShloMosaic.PureOps.Ideal
import Idealize.ShloMosaic.Lib.ValueIdx

noncomputable section

namespace Cert.Spec

open Idealize.ShloMosaic Idealize.ShloMosaic.ValueIdx

/-- The product of an `[a, k]` array with a `[k, b]` array: entry `(p, q)` is `∑ d, x (p, d) · w (d, q)`. -/
def mm {a k b : ℕ} (x : (⟨2, ![a, k]⟩ : Shape).Idx → EReal) (w : (⟨2, ![k, b]⟩ : Shape).Idx → EReal) :
    (⟨2, ![a, b]⟩ : Shape).Idx → EReal :=
  fun i => ∑ d : Fin k, x (ix2 (i 0) d) * w (ix2 d (i 1))

/-- The one-row array `r` added to every row of `x`, then clamped below at zero:
    entry `(p, q)` is `max (x (p, q) + r (0, q)) 0`. -/
def biasRelu {a b : ℕ} (x : (⟨2, ![a, b]⟩ : Shape).Idx → EReal) (r : (⟨2, ![1, b]⟩ : Shape).Idx → EReal) :
    (⟨2, ![a, b]⟩ : Shape).Idx → EReal :=
  fun i => max (x i + r (ix2 0 (i 1))) (Ideal.ofBits .f32 0x00000000#32)

/-- The dense head on `a` rows: with `ppr = biasRelu (mm xl wp) bp` and
    `fused = biasRelu (mm h wfh + mm ppr wfp) bf`, entry `(p, 0)` is `logistic ((mm fused wr) (p, 0) + br (0, 0))`. -/
def head {a : ℕ} (xl : (⟨2, ![a, 10]⟩ : Shape).Idx → EReal) (h : (⟨2, ![a, 64]⟩ : Shape).Idx → EReal)
    (wp : (⟨2, ![10, 32]⟩ : Shape).Idx → EReal) (bp : (⟨2, ![1, 32]⟩ : Shape).Idx → EReal)
    (wfh : (⟨2, ![64, 64]⟩ : Shape).Idx → EReal) (wfp : (⟨2, ![32, 64]⟩ : Shape).Idx → EReal)
    (bf : (⟨2, ![1, 64]⟩ : Shape).Idx → EReal) (wr : (⟨2, ![64, 1]⟩ : Shape).Idx → EReal)
    (br : (⟨2, ![1, 1]⟩ : Shape).Idx → EReal) : (⟨2, ![a, 1]⟩ : Shape).Idx → EReal :=
  fun i => Ideal.logistic
    (mm (biasRelu (fun j => mm h wfh j + mm (biasRelu (mm xl wp) bp) wfp j) bf) wr i + br (ix2 0 0))

end Cert.Spec

end
-- ==== Proof.Model.lean ====
/-
  The network as one function of the fourteen argument arrays.

  Both programs compute, on the extended reals,
      norm  = the symmetric normalisation of the graph with self loops, one factor per edge (a function of the
              edge list alone),
      h₁    = relu (A (x · W₁) + b₁),   h₂ = relu (A (h₁ · W₂) + b₂),   h₃ = relu (A (h₂ · W₃) + b₃),
      out   = logistic (relu ([h₃, relu (x[:, 56:] · Wp + bp)] · Wf + bf) · Wr + br),
  where `A y` gathers the rows of `y` at the edges' sources, scales each by its edge's factor and adds it into the row
  of the edge's target. `A` is kept here as the two host operations it is (a gather and an accumulating scatter over
  index arrays computed from the edge list): both programs apply the SAME two operations, so nothing about them has
  to be opened; the dense steps are the entry-by-entry functions of the specification. This module states that one
  function, `G`; the two value modules show that each program's result is `G` of its arguments.
-/
import proofs.«132266_j64192581206382_1_alg».proof.Proof.Gen.KernelIdeal
import proofs.«132266_j64192581206382_1_alg».proof.Proof.RefRead
import proofs.«132266_j64192581206382_1_alg».proof.Proof.Spec

noncomputable section

namespace Cert.Model

open Idealize.ShloMosaic Cert.ReferenceIdeal Cert.ReferenceIdeal.ReadP

/-- The edge list: row 0 the sources, row 1 the targets. -/
abbrev Edges : Type := (⟨S2x1600000, .i32⟩ : BufTy).Contents (Elt Ideal)

/-- One propagation step at width 128: row `n` of the result is the sum, over the edges `e` into `n` (self loops
    included), of the edge's factor times row `source e` of `h`. -/
def agg128 (h : FVec Ideal S100000x128 .f32) (x1 : Edges) : FVec Ideal S100000x128 .f32 :=
  Host.scatterAdd scatter_S100000x128_S1700000x1_S1700000x128_1_0_0_1 (val_main_v41 (F := Ideal)) (val_main_v42 (F := Ideal) x1)
    (mulf (Host.gather gather_S100000x128_S1700000x1_S1700000x128_1_0_n_n_0_1_1128 h (val_main_v36 (F := Ideal) x1))
      (val_main_v39 (F := Ideal) x1))

/-- The same step at width 64. -/
def agg64 (h : FVec Ideal S100000x64 .f32) (x1 : Edges) : FVec Ideal S100000x64 .f32 :=
  Host.scatterAdd scatter_S100000x64_S1700000x1_S1700000x64_1_0_0_1 (val_main_v77 (F := Ideal)) (val_main_v78 (F := Ideal) x1)
    (mulf (Host.gather gather_S100000x64_S1700000x1_S1700000x64_1_0_n_n_0_1_164 h (val_main_v72 (F := Ideal) x1))
      (val_main_v75 (F := Ideal) x1))

variable (x0 : FVec Ideal S100000x66 .f32) (x1 : Edges) (x2 : FVec Ideal S66x128 .f32) (x3 : FVec Ideal S128 .f32)
  (x4 : FVec Ideal S128x128 .f32) (x5 : FVec Ideal S128 .f32) (x6 : FVec Ideal S128x64 .f32) (x7 : FVec Ideal S64 .f32)
  (x8 : FVec Ideal S10x32 .f32) (x9 : FVec Ideal S32 .f32) (x10 : FVec Ideal S96x64 .f32) (x11 : FVec Ideal S64 .f32)
  (x12 : FVec Ideal S64x1 .f32) (x13 : FVec Ideal S1 .f32)

/-- The first layer: `relu (A (x · W₁) + b₁)`. -/
def h1 : FVec Ideal S100000x128 .f32 :=
  Cert.Spec.biasRelu (agg128 (Cert.Spec.mm x0 x2) x1) (val_main_v44 (F := Ideal) x3)

/-- The second layer: `relu (A (h₁ · W₂) + b₂)`. -/
def h2 : FVec Ideal S100000x128 .f32 :=
  Cert.Spec.biasRelu (agg128 (Cert.Spec.mm (h1 x0 x1 x2 x3) x4) x1) (val_main_v62 (F := Ideal) x5)

/-- The third layer: `relu (A (h₂ · W₃) + b₃)`. -/
def h3 : FVec Ideal S100000x64 .f32 :=
  Cert.Spec.biasRelu (agg64 (Cert.Spec.mm (h2 x0 x1 x2 x3 x4 x5) x6) x1) (val_main_v80 (F := Ideal) x7)

/-- Rows 0 … 63 of the fusion weights: the part that multiplies `h₃`. -/
def wfTop : FVec Ideal (⟨2, ![64, 64]⟩ : Shape) .f32 :=
  extractStridedSlice (⟨2, ![64, 64]⟩ : Shape) ![0, 0] x10 Cert.KernelIdeal.Facts₀.slices_S96x64_S64x64_0_0

/-- Rows 64 … 95 of the fusion weights: the part that multiplies the projected features. -/
def wfBot : FVec Ideal (⟨2, ![32, 64]⟩ : Shape) .f32 :=
  extractStridedSlice (⟨2, ![32, 64]⟩ : Shape) ![64, 0] x10 Cert.KernelIdeal.Facts₀.slices_S96x64_S32x64_64_0

/-- The network's output, one number per node. -/
def G : FVec Ideal S100000 .f32 :=
  shapeCast S100000
    (Cert.Spec.head (val_main_v84 (F := Ideal) x0) (h3 x0 x1 x2 x3 x4 x5 x6 x7) x8 (val_main_v86 (F := Ideal) x9)
      (wfTop x10) (wfBot x10) (val_main_v92 (F := Ideal) x11) x12 (val_main_v97 (F := Ideal) x13))
    Cert.ReferenceIdeal.Facts₀.shapeCasts_S100000x1_S100000

end Cert.Model

end
-- ==== Proof.LibRowLift.lean ====
/-
  A vector lifted to a one-row array, two ways.

  `x : [a]` becomes a `[1, a]` array either by a reshape or by a broadcast along a NEW leading unit axis (a
  `broadcast_in_dim` whose `dims = [1]` sends the vector's only axis to the array's second).  Both arrays hold
  `x i` at entry `(0, i)`, so they are one array.  A bias vector passed as a `(1, n)` operand after a reshape and the
  same bias added to every row of an `(m, n)` array meet through this.
-/
import Idealize.ShloMosaic.Lib.Pipeline.Value
import Idealize.ShloMosaic.Lib.ValueIdx
import Idealize.ShloMosaic.Lib.ValueLayout

namespace Cert.RowLift

open Idealize.ShloMosaic Idealize.ShloMosaic.ValueIdx

/-- The reshape `[a] → [1, a]` IS the broadcast `[a] → [1, a]` along a new leading axis: entry `(0, i)` of either is
    entry `i` of the vector (for `a = 1` the broadcast reads the vector's unit axis at `0`, which is `i`). -/
theorem shapeCast_a_1a_eq_broadcastInDim {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply ![1] h' x _ (ix1 i) fun d => ?_).symm
  match d with
  | ⟨0, _⟩ =>
    show i.val = if a = 1 then 0 else i.val
    have hlt : i.val < a := i.isLt
    split
    · omega
    · rfl

end Cert.RowLift
-- ==== Proof.KernelHost.lean ====
/-
  The host stretches of the kernel program, read as functions of the buffers they consume.

  Between its regions the kernel program runs the same host operations as the reference: from the edge list the
  sources and targets with the self loops appended, the degree of every node by an accumulating scatter of ones, its
  inverse square root where the degree is positive, the factor of every edge as the product of the two gathered
  values; then, per layer, a gather of rows at the wrapped source indices, the scaling by the edge factors and the
  accumulating scatter into the target rows. Each stretch is read here from ANY contents `W` of the buffers at its
  entry: the buffer an operation writes holds afterwards the operation's function of the buffers it reads. The terms
  that come out are, operation for operation, the reference's own stage functions of the edge list, and the
  propagation step of the model.
-/
import proofs.«132266_j64192581206382_1_alg».proof.Proof.Gen.KernelIdeal.Frame
import proofs.«132266_j64192581206382_1_alg».proof.Proof.Model
import proofs.«132266_j64192581206382_1_alg».proof.Proof.LibRowLift
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

section AnyFloat

variable {F : FTy → Type} [FloatOps F] (W : Valuation τ sig (Elt F))

/-! ## The first stretch: sources, targets, degrees -/

/-- The sources with the self loops appended. -/
theorem sources_eq : StableHlo.after hostOps0 W (Proc.devRef .tc main_v3) = Cert.ReferenceIdeal.ReadP.val_main_v3 (F := F) (W (Proc.devRef .tc main_arg1)) := by
  after_results_simp; rfl
/-- The targets with the self loops appended. -/
theorem targets_eq : StableHlo.after hostOps0 W (Proc.devRef .tc main_v6) = Cert.ReferenceIdeal.ReadP.val_main_v6 (F := F) (W (Proc.devRef .tc main_arg1)) := by
  after_results_simp; rfl
/-- Where the degree is positive. -/
theorem positive_eq : StableHlo.after hostOps0 W (Proc.devRef .tc main_v12) = Cert.ReferenceIdeal.ReadP.val_main_v12 (F := F) (W (Proc.devRef .tc main_arg1)) := by
  after_results_simp; rfl
/-- The inverse square root of the degree. -/
theorem rsqrt_eq : StableHlo.after hostOps0 W (Proc.devRef .tc main_v13) = Cert.ReferenceIdeal.ReadP.val_main_v13 (F := F) (W (Proc.devRef .tc main_arg1)) := by
  after_results_simp; rfl
/-- The zero the selection falls back to. -/
theorem zero_eq : StableHlo.after hostOps0 W (Proc.devRef .tc main_cst_2) = Cert.ReferenceIdeal.ReadP.val_main_cst_2 (F := F) := by
  after_results_simp; rfl

end AnyFloat

section AnyFloat2

variable {F : FTy → Type} [FloatOps F] (W : Valuation τ sig (Elt F)) (x1 : (⟨Cert.ReferenceIdeal.S2x1600000, .i32⟩ : BufTy).Contents (Elt F))

/-! ## The selection: the inverse square root where the degree is positive, zero elsewhere -/

theorem dinv_eq (h12 : W (Proc.devRef .tc main_v12) = Cert.ReferenceIdeal.ReadP.val_main_v12 (F := F) x1)
    (h13 : W (Proc.devRef .tc main_v13) = Cert.ReferenceIdeal.ReadP.val_main_v13 (F := F) x1)
    (hc : W (Proc.devRef .tc main_cst_2) = Cert.ReferenceIdeal.ReadP.val_main_cst_2 (F := F)) :
    StableHlo.after hostOps0_1 W (Proc.devRef .tc main_v14) = Cert.ReferenceIdeal.ReadP.val_main_v14 (F := F) x1 := by
  after_results_simp
  show select (W (Proc.devRef .tc main_v12)) (W (Proc.devRef .tc main_v13))
      (broadcastInDim S100000 ![] bcast_S_S100000 (id (W (Proc.devRef .tc main_cst_2)))) = _
  rw [h12, h13, hc]
  rfl

/-! ## The edge factors -/

theorem factor_eq (h14 : W (Proc.devRef .tc main_v14) = Cert.ReferenceIdeal.ReadP.val_main_v14 (F := F) x1)
    (h3 : W (Proc.devRef .tc main_v3) = Cert.ReferenceIdeal.ReadP.val_main_v3 (F := F) x1)
    (h6 : W (Proc.devRef .tc main_v6) = Cert.ReferenceIdeal.ReadP.val_main_v6 (F := F) x1) :
    StableHlo.after hostOps0_2 W (Proc.devRef .tc main_v30) = Cert.ReferenceIdeal.ReadP.val_main_v38 (F := F) x1 := by
  after_results_simp
  rw [h14, h3, h6]
  rfl

end AnyFloat2

section AtIdeal

variable (W : Valuation τ sig (Elt Ideal)) (x1 : Cert.Model.Edges)

/-! ## The three propagation steps and the bias rows -/

theorem agg1_eq (h3 : W (Proc.devRef .tc main_v3) = Cert.ReferenceIdeal.ReadP.val_main_v3 (F := Ideal) x1)
    (h6 : W (Proc.devRef .tc main_v6) = Cert.ReferenceIdeal.ReadP.val_main_v6 (F := Ideal) x1)
    (h30 : W (Proc.devRef .tc main_v30) = Cert.ReferenceIdeal.ReadP.val_main_v38 (F := Ideal) x1) :
    StableHlo.after hostOps1 W (Proc.devRef .tc main_v43) = Cert.Model.agg128 (W (Proc.devRef .tc main_v31)) x1 := by
  after_results_simp
  rw [h3, h6, h30]
  rfl

theorem agg2_eq (h3 : W (Proc.devRef .tc main_v3) = Cert.ReferenceIdeal.ReadP.val_main_v3 (F := Ideal) x1)
    (h6 : W (Proc.devRef .tc main_v6) = Cert.ReferenceIdeal.ReadP.val_main_v6 (F := Ideal) x1)
    (h30 : W (Proc.devRef .tc main_v30) = Cert.ReferenceIdeal.ReadP.val_main_v38 (F := Ideal) x1) :
    StableHlo.after hostOps3 W (Proc.devRef .tc main_v58) = Cert.Model.agg128 (W (Proc.devRef .tc main_v46)) x1 := by
  after_results_simp
  rw [h3, h6, h30]
  rfl

theorem agg3_eq (h3 : W (Proc.devRef .tc main_v3) = Cert.ReferenceIdeal.ReadP.val_main_v3 (F := Ideal) x1)
    (h6 : W (Proc.devRef .tc main_v6) = Cert.ReferenceIdeal.ReadP.val_main_v6 (F := Ideal) x1)
    (h30 : W (Proc.devRef .tc main_v30) = Cert.ReferenceIdeal.ReadP.val_main_v38 (F := Ideal) x1) :
    StableHlo.after hostOps5 W (Proc.devRef .tc main_v73) = Cert.Model.agg64 (W (Proc.devRef .tc main_v61)) x1 := by
  after_results_simp
  rw [h3, h6, h30]
  rfl

/-- A bias vector reshaped to one row is its broadcast along a new leading axis. -/
theorem row1_eq : StableHlo.after hostOps1 W (Proc.devRef .tc main_v44) = Cert.ReferenceIdeal.ReadP.val_main_v44 (F := Ideal) (W (Proc.devRef .tc main_arg3)) := by
  after_results_simp
  exact Cert.RowLift.shapeCast_a_1a_eq_broadcastInDim _ _ _
theorem row2_eq : StableHlo.after hostOps3 W (Proc.devRef .tc main_v59) = Cert.ReferenceIdeal.ReadP.val_main_v62 (F := Ideal) (W (Proc.devRef .tc main_arg5)) := by
  after_results_simp
  exact Cert.RowLift.shapeCast_a_1a_eq_broadcastInDim _ _ _
theorem row3_eq : StableHlo.after hostOps5 W (Proc.devRef .tc main_v74) = Cert.ReferenceIdeal.ReadP.val_main_v80 (F := Ideal) (W (Proc.devRef .tc main_arg7)) := by
  after_results_simp
  exact Cert.RowLift.shapeCast_a_1a_eq_broadcastInDim _ _ _

/-! ## The head's operands and the final reshape -/

theorem last10_eq : StableHlo.after hostOps6 W (Proc.devRef .tc main_v76) = Cert.ReferenceIdeal.ReadP.val_main_v84 (F := Ideal) (W (Proc.devRef .tc main_arg0)) := by
  after_results_simp; rfl
theorem wfTop_eq : StableHlo.after hostOps6 W (Proc.devRef .tc main_v77) = Cert.Model.wfTop (W (Proc.devRef .tc main_arg10)) := by
  after_results_simp; rfl
theorem wfBot_eq : StableHlo.after hostOps6 W (Proc.devRef .tc main_v78) = Cert.Model.wfBot (W (Proc.devRef .tc main_arg10)) := by
  after_results_simp; rfl
theorem rowP_eq : StableHlo.after hostOps6 W (Proc.devRef .tc main_v79) = Cert.ReferenceIdeal.ReadP.val_main_v86 (F := Ideal) (W (Proc.devRef .tc main_arg9)) := by
  after_results_simp
  exact Cert.RowLift.shapeCast_a_1a_eq_broadcastInDim _ _ _
theorem rowF_eq : StableHlo.after hostOps6 W (Proc.devRef .tc main_v80) = Cert.ReferenceIdeal.ReadP.val_main_v92 (F := Ideal) (W (Proc.devRef .tc main_arg11)) := by
  after_results_simp
  exact Cert.RowLift.shapeCast_a_1a_eq_broadcastInDim _ _ _
theorem rowR_eq : StableHlo.after hostOps6 W (Proc.devRef .tc main_v81) = Cert.ReferenceIdeal.ReadP.val_main_v97 (F := Ideal) (W (Proc.devRef .tc main_arg13)) := by
  after_results_simp
  exact Cert.RowLift.shapeCast_a_1a_eq_broadcastInDim _ _ _
theorem out_eq : StableHlo.after hostOps7 W (Proc.devRef .tc main_v83)
    = shapeCast Cert.ReferenceIdeal.S100000 (W (Proc.devRef .tc main_v82)) Cert.ReferenceIdeal.Facts₀.shapeCasts_S100000x1_S100000 := by
  after_results_simp; rfl

end AtIdeal

end Cert.KernelIdeal.Fold

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.RegionMatmul0.lean ====
/-
  The first matrix-product region of the network, read as one array.

  The region walks ten blocks of 10000 rows. At block `t` it holds rows `10000·t … 10000·t + 9999` of the
  `[100000, 66]` left operand and the whole `[66, 128]` right operand, and leaves in the result's block the
  product of the two: entry `(p, q)` of the block is the sum over `d` of (row `p` of the block, column `d`)
  times (row `d`, column `q`) of the right operand. Row `p` of block `t` is row `10000·t + p` of the array, the
  ten blocks cover all 100000 rows, so the result array ends holding the matrix product of the two arrays as
  the region found them.
-/
import proofs.«132266_j64192581206382_1_alg».proof.Proof.Gen.KernelIdeal.Frame
import proofs.«132266_j64192581206382_1_alg».proof.Proof.Spec
import proofs.«132266_j64192581206382_1_alg».proof.Proof.LibMatmulRead
import Idealize.ShloMosaic.Lib.Pipeline.Value

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-- The zero offsets of a whole-block access, as a constant function. -/
theorem hz0 : (![0, 0] : Fin 2 → Nat) = fun _ => 0 := funext fun a => by fin_cases a <;> rfl

/-- The body's arithmetic at entry `(p, q)` of a block: the rounding of both operands to the narrower format is
    the identity on the extended reals, and the product from the zero accumulator is the sum over the contracted
    coordinate. -/
theorem pay0_apply (x0 : Vec Ideal S10000x66 .f32) (x1 : Vec Ideal S66x128 .f32) (p : Fin 10000) (q : Fin 128) :
    (k0_pay1 x0 x1 : S10000x128.Idx → EReal) (ix2 p q) = ∑ d : Fin 66, x0 (ix2 p d) * x1 (ix2 d q) := by
  unfold k0_pay1
  exact matmul_ix2_apply dot_S10000x66_S66x128_S10000x128_1_0_0_1_n_n rfl rfl rfl rfl rfl rfl none _ _ p q

/-- The same at any index of the block, by its two coordinates. -/
theorem pay0_at (x0 : Vec Ideal S10000x66 .f32) (x1 : Vec Ideal S66x128 .f32) (j : S10000x128.Idx) :
    (k0_pay1 x0 x1 : S10000x128.Idx → EReal) j = ∑ d : Fin 66, x0 (ix2 (j 0) d) * x1 (ix2 d (j 1)) := by
  obtain ⟨p, q, rfl⟩ : ∃ (p : Fin 10000) (q : Fin 128), j = ix2 p q := ⟨j 0, j 1, eq_ix2 j⟩
  exact pay0_apply x0 x1 p q

/-- The printed index maps over the ten points: the left operand's and the result's block row is the point,
    every block column is 0, and the right operand's block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the left operand's block at point `t` is the array's entry in row `10000·t + y₀`, column `y₁`. -/
theorem lhs_block0 (c : Dev nD) (t : Fin cfg0.N) (y : S10000x66.Idx) (k : S100000x66.Idx)
    (hk0 : (k 0).val = 10000 * t.val + (y 0).val) (hk1 : (k 1).val = (y 1).val) :
    (iblk0 V c 0 t : Vec Ideal S10000x66 .f32) y = (V c main_arg0 : S100000x66.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 10000 + 1 * (y 0).val = (k 0).val; rw [e0, hk0]; omega
  | ⟨1, _⟩ => show win0_0.index t 1 * 66 + 1 * (y 1).val = (k 1).val; rw [e1, hk1]; omega

/-- The right operand's block at every point is the whole array. -/
theorem rhs_block0 (c : Dev nD) (t : Fin cfg0.N) (y : S66x128.Idx) :
    (iblk0 V c 1 t : Vec Ideal S66x128 .f32) y = (V c main_arg2 : S66x128.Idx → EReal) y := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t 0 * 66 + 1 * (y 0).val = (y 0).val; rw [e2]; omega
  | ⟨1, _⟩ => show win0_1.index t 1 * 128 + 1 * (y 1).val = (y 1).val; rw [e3]; omega

/-- What the region's result array should end holding: the matrix product of the two arrays as the region finds them. -/
abbrev prod0 (c : Dev nD) : S100000x128.Idx → EReal :=
  Cert.Spec.mm (V c main_arg0 : S100000x66.Idx → EReal) (V c main_arg2 : S66x128.Idx → EReal)

/-- What point `t` writes back is block `t` of the matrix product. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 (F := Ideal) V c).after 2 t) = _
  rw [after0_2]
  unfold out0_2
  rw [View.canon_unit_zero hz0]
  simp only [View.ld_unit_zero (S := S10000x66) hz0, View.ld_unit_zero (S := S66x128) hz0]
  obtain ⟨-, -, -, -, e4, e5⟩ := idx_facts0 t
  refine funext fun (j : S10000x128.Idx) => ?_
  refine (pay0_at (iblk0 V c 0 t) (iblk0 V c 1 t) j).trans ?_
  rw [View.read_apply]
  show _ = Cert.Spec.mm (V c main_arg0 : S100000x66.Idx → EReal) (V c main_arg2 : S66x128.Idx → EReal)
      (((cfg0.win 2).blk t).view.emb j)
  unfold Cert.Spec.mm
  have h0 : ((((cfg0.win 2).blk t).view.emb j) 0).val = 10000 * t.val + (j 0).val := by
    show win0_2.index t 0 * 10000 + 1 * (j 0).val = _; rw [e4]; omega
  have h1 : ((((cfg0.win 2).blk t).view.emb j) 1).val = (j 1).val := by
    show win0_2.index t 1 * 128 + 1 * (j 1).val = _; rw [e5]; omega
  refine Finset.sum_congr rfl fun d _ => ?_
  refine congrArg₂ (· * ·) (lhs_block0 V c t (ix2 (j 0) d) _ h0 rfl) ?_
  refine (rhs_block0 V c t (ix2 d (j 1))).trans (congrArg (V c main_arg2 : S66x128.Idx → EReal) ?_)
  funext a
  apply Fin.ext
  match a with
  | ⟨0, _⟩ => rfl
  | ⟨1, _⟩ => exact h1.symm

/-- An index of the result array is in point `t`'s block iff its row is one of the block's 10000 rows. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Every index of the result array is in the block of the point its row falls in: row `r` is in block `r / 10000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, e4, e5⟩ := idx_facts0 t
  have ht : t.val = (i 0).val / 10000 := rfl
  refine ⟨t, flush0_2 t, ?_⟩
  rw [mem_blk0]
  intro a
  match a with
  | ⟨0, _⟩ => show win0_2.index t 0 * 10000 ≤ (i 0).val ∧ (i 0).val < win0_2.index t 0 * 10000 + 10000; rw [e4, ht]; omega
  | ⟨1, _⟩ => show win0_2.index t 1 * 128 ≤ (i 1).val ∧ (i 1).val < win0_2.index t 1 * 128 + 128; rw [e5]; omega

/-- The result array of the region, when the region is left, is the matrix product of the two operand arrays as the
    region found them. -/
theorem region0_value (c : Dev nD) :
    ((dat0 (F := Ideal) V c).arrAt 2 cfg0.N : S100000x128.Idx → EReal)
      = Cert.Spec.mm (V c main_arg0 : S100000x66.Idx → EReal) (V c main_arg2 : S66x128.Idx → EReal) :=
  (dat0 (F := Ideal) V c).arrAt_eq_of_cover 2 (prod0 V c) (fun t _ => flushed0_eq V c t) cover0

end Cert.KernelIdeal.RegionValue

end
-- ==== Proof.RegionMatmul2.lean ====
/-
  The second matrix-product region of the network, read as one array.

  The region walks ten blocks of 10000 rows. At block `t` it holds rows `10000·t … 10000·t + 9999` of the
  `[100000, 128]` left operand and the whole `[128, 128]` right operand, and leaves in the result's block the
  product of the two: entry `(p, q)` of the block is the sum over `d` of (row `p` of the block, column `d`)
  times (row `d`, column `q`) of the right operand. Row `p` of block `t` is row `10000·t + p` of the array, the
  ten blocks cover all 100000 rows, so the result array ends holding the matrix product of the two arrays as
  the region found them.
-/
import proofs.«132266_j64192581206382_1_alg».proof.Proof.Gen.KernelIdeal.Frame
import proofs.«132266_j64192581206382_1_alg».proof.Proof.Spec
import proofs.«132266_j64192581206382_1_alg».proof.Proof.LibMatmulRead
import Idealize.ShloMosaic.Lib.Pipeline.Value

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-- The zero offsets of a whole-block access, as a constant function. -/
theorem hz2 : (![0, 0] : Fin 2 → Nat) = fun _ => 0 := funext fun a => by fin_cases a <;> rfl

/-- The body's arithmetic at entry `(p, q)` of a block: the reshaping of the left block to its own shape and the
    rounding of both operands to the narrower format are the identity on the extended reals, and the product from
    the zero accumulator is the sum over the contracted coordinate. -/
theorem pay2_apply (x0 : Vec Ideal S10000x128 .f32) (x1 : Vec Ideal S128x128 .f32) (p : Fin 10000) (q : Fin 128) :
    (k2_pay1 x0 x1 : S10000x128.Idx → EReal) (ix2 p q) = ∑ d : Fin 128, x0 (ix2 p d) * x1 (ix2 d q) := by
  unfold k2_pay1
  refine (matmul_ix2_apply dot_S10000x128_S128x128_S10000x128_1_0_0_1_n_n rfl rfl rfl rfl rfl rfl none _ _ p q).trans ?_
  refine Finset.sum_congr rfl fun d _ => ?_
  exact congrArg (· * x1 (ix2 d q)) (congrFun (shapeCast_self x0 shapeCasts_S10000x128_S10000x128) (ix2 p d))

/-- The same at any index of the block, by its two coordinates. -/
theorem pay2_at (x0 : Vec Ideal S10000x128 .f32) (x1 : Vec Ideal S128x128 .f32) (j : S10000x128.Idx) :
    (k2_pay1 x0 x1 : S10000x128.Idx → EReal) j = ∑ d : Fin 128, x0 (ix2 (j 0) d) * x1 (ix2 d (j 1)) := by
  obtain ⟨p, q, rfl⟩ : ∃ (p : Fin 10000) (q : Fin 128), j = ix2 p q := ⟨j 0, j 1, eq_ix2 j⟩
  exact pay2_apply x0 x1 p q

/-- The printed index maps over the ten points: the left operand's and the result's block row is the point,
    every block column is 0, and the right operand's block is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `y` of the left operand's block at point `t` is the array's entry in row `10000·t + y₀`, column `y₁`. -/
theorem lhs_block2 (c : Dev nD) (t : Fin cfg2.N) (y : S10000x128.Idx) (k : S100000x128.Idx)
    (hk0 : (k 0).val = 10000 * t.val + (y 0).val) (hk1 : (k 1).val = (y 1).val) :
    (iblk2 V c 0 t : Vec Ideal S10000x128 .f32) y = (V c main_v45 : S100000x128.Idx → EReal) k := by
  obtain ⟨e0, e1, -⟩ := idx_facts2 t
  unfold iblk2
  rw [View.read_apply]
  show V c main_v45 _ = V c main_v45 _
  congr 1
  funext a
  apply Fin.ext
  match a with
  | ⟨0, _⟩ => show win2_0.index t 0 * 10000 + 1 * (y 0).val = (k 0).val; rw [e0, hk0]; omega
  | ⟨1, _⟩ => show win2_0.index t 1 * 128 + 1 * (y 1).val = (k 1).val; rw [e1, hk1]; omega

/-- The right operand's block at every point is the whole array. -/
theorem rhs_block2 (c : Dev nD) (t : Fin cfg2.N) (y : S128x128.Idx) :
    (iblk2 V c 1 t : Vec Ideal S128x128 .f32) y = (V c main_arg4 : S128x128.Idx → EReal) y := by
  obtain ⟨-, -, e2, e3, -⟩ := idx_facts2 t
  unfold iblk2
  rw [View.read_apply]
  show V c main_arg4 _ = V c main_arg4 _
  congr 1
  funext a
  apply Fin.ext
  match a with
  | ⟨0, _⟩ => show win2_1.index t 0 * 128 + 1 * (y 0).val = (y 0).val; rw [e2]; omega
  | ⟨1, _⟩ => show win2_1.index t 1 * 128 + 1 * (y 1).val = (y 1).val; rw [e3]; omega

/-- What the region's result array should end holding: the matrix product of the two arrays as the region finds them. -/
abbrev prod2 (c : Dev nD) : S100000x128.Idx → EReal :=
  Cert.Spec.mm (V c main_v45 : S100000x128.Idx → EReal) (V c main_arg4 : S128x128.Idx → EReal)

/-- What point `t` writes back is block `t` of the matrix product. -/
theorem flushed2_eq (c : Dev nD) (t : Fin cfg2.N) :
    (dat2 (F := Ideal) V c).flushed 2 t = ((cfg2.win 2).blk t).view.read (Elt Ideal) (prod2 V c) := by
  show (cfg2.win 2).cut (grid2.coords t) ((dat2 (F := Ideal) V c).after 2 t) = _
  rw [after2_2]
  unfold out2_2
  rw [View.canon_unit_zero hz2]
  simp only [View.ld_unit_zero (S := S10000x128) hz2, View.ld_unit_zero (S := S128x128) hz2]
  obtain ⟨-, -, -, -, e4, e5⟩ := idx_facts2 t
  refine funext fun (j : S10000x128.Idx) => ?_
  refine (pay2_at (iblk2 V c 0 t) (iblk2 V c 1 t) j).trans ?_
  rw [View.read_apply]
  show _ = Cert.Spec.mm (V c main_v45 : S100000x128.Idx → EReal) (V c main_arg4 : S128x128.Idx → EReal)
      (((cfg2.win 2).blk t).view.emb j)
  unfold Cert.Spec.mm
  have h0 : ((((cfg2.win 2).blk t).view.emb j) 0).val = 10000 * t.val + (j 0).val := by
    show win2_2.index t 0 * 10000 + 1 * (j 0).val = _; rw [e4]; omega
  have h1 : ((((cfg2.win 2).blk t).view.emb j) 1).val = (j 1).val := by
    show win2_2.index t 1 * 128 + 1 * (j 1).val = _; rw [e5]; omega
  refine Finset.sum_congr rfl fun d _ => ?_
  refine congrArg₂ (· * ·) (lhs_block2 V c t (ix2 (j 0) d) _ h0 rfl) ?_
  refine (rhs_block2 V c t (ix2 d (j 1))).trans (congrArg (V c main_arg4 : S128x128.Idx → EReal) ?_)
  funext a
  apply Fin.ext
  match a with
  | ⟨0, _⟩ => rfl
  | ⟨1, _⟩ => exact h1.symm

/-- An index of the result array is in point `t`'s block iff its row is one of the block's 10000 rows. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v46).slice (win2_2.rect t)).set ↔ _
  rw [View.set_slice_whole, Rect.mem_set_unit]
  exact Iff.rfl

/-- Every index of the result array is in the block of the point its row falls in: row `r` is in block `r / 10000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨-, -, -, -, e4, e5⟩ := idx_facts2 t
  have ht : t.val = (i 0).val / 10000 := rfl
  refine ⟨t, flush2_2 t, ?_⟩
  rw [mem_blk2]
  intro a
  match a with
  | ⟨0, _⟩ => show win2_2.index t 0 * 10000 ≤ (i 0).val ∧ (i 0).val < win2_2.index t 0 * 10000 + 10000; rw [e4, ht]; omega
  | ⟨1, _⟩ => show win2_2.index t 1 * 128 ≤ (i 1).val ∧ (i 1).val < win2_2.index t 1 * 128 + 128; rw [e5]; omega

/-- The result array of the region, when the region is left, is the matrix product of the two operand arrays as the
    region found them. -/
theorem region2_value (c : Dev nD) :
    ((dat2 (F := Ideal) V c).arrAt 2 cfg2.N : S100000x128.Idx → EReal)
      = Cert.Spec.mm (V c main_v45 : S100000x128.Idx → EReal) (V c main_arg4 : S128x128.Idx → EReal) :=
  (dat2 (F := Ideal) V c).arrAt_eq_of_cover 2 (prod2 V c) (fun t _ => flushed2_eq V c t) cover2

end Cert.KernelIdeal.RegionValue

end
-- ==== Proof.RegionMatmul4.lean ====
/-
  The third matrix-product region of the network, read as one array.

  The region walks ten blocks of 10000 rows. At block `t` it holds rows `10000·t … 10000·t + 9999` of the
  `[100000, 128]` left operand and the whole `[128, 64]` right operand, and leaves in the result's block the
  product of the two: entry `(p, q)` of the block is the sum over `d` of (row `p` of the block, column `d`)
  times (row `d`, column `q`) of the right operand. Row `p` of block `t` is row `10000·t + p` of the array, the
  ten blocks cover all 100000 rows, so the result array ends holding the matrix product of the two arrays as
  the region found them.
-/
import proofs.«132266_j64192581206382_1_alg».proof.Proof.Gen.KernelIdeal.Frame
import proofs.«132266_j64192581206382_1_alg».proof.Proof.Spec
import proofs.«132266_j64192581206382_1_alg».proof.Proof.LibMatmulRead
import Idealize.ShloMosaic.Lib.Pipeline.Value

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-- The zero offsets of a whole-block access, as a constant function. -/
theorem hz4 : (![0, 0] : Fin 2 → Nat) = fun _ => 0 := funext fun a => by fin_cases a <;> rfl

/-- The body's arithmetic at entry `(p, q)` of a block: the reshaping of the left block to its own shape and the
    rounding of both operands to the narrower format are the identity on the extended reals, and the product from
    the zero accumulator is the sum over the contracted coordinate. -/
theorem pay4_apply (x0 : Vec Ideal S10000x128 .f32) (x1 : Vec Ideal S128x64 .f32) (p : Fin 10000) (q : Fin 64) :
    (k4_pay1 x0 x1 : S10000x64.Idx → EReal) (ix2 p q) = ∑ d : Fin 128, x0 (ix2 p d) * x1 (ix2 d q) := by
  unfold k4_pay1
  refine (matmul_ix2_apply dot_S10000x128_S128x64_S10000x64_1_0_0_1_n_n rfl rfl rfl rfl rfl rfl none _ _ p q).trans ?_
  refine Finset.sum_congr rfl fun d _ => ?_
  exact congrArg (· * x1 (ix2 d q)) (congrFun (shapeCast_self x0 shapeCasts_S10000x128_S10000x128) (ix2 p d))

/-- The same at any index of the block, by its two coordinates. -/
theorem pay4_at (x0 : Vec Ideal S10000x128 .f32) (x1 : Vec Ideal S128x64 .f32) (j : S10000x64.Idx) :
    (k4_pay1 x0 x1 : S10000x64.Idx → EReal) j = ∑ d : Fin 128, x0 (ix2 (j 0) d) * x1 (ix2 d (j 1)) := by
  obtain ⟨p, q, rfl⟩ : ∃ (p : Fin 10000) (q : Fin 64), j = ix2 p q := ⟨j 0, j 1, eq_ix2 j⟩
  exact pay4_apply x0 x1 p q

/-- The printed index maps over the ten points: the left operand's and the result's block row is the point,
    every block column is 0, and the right operand's block is the whole array. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry `y` of the left operand's block at point `t` is the array's entry in row `10000·t + y₀`, column `y₁`. -/
theorem lhs_block4 (c : Dev nD) (t : Fin cfg4.N) (y : S10000x128.Idx) (k : S100000x128.Idx)
    (hk0 : (k 0).val = 10000 * t.val + (y 0).val) (hk1 : (k 1).val = (y 1).val) :
    (iblk4 V c 0 t : Vec Ideal S10000x128 .f32) y = (V c main_v60 : S100000x128.Idx → EReal) k := by
  obtain ⟨e0, e1, -⟩ := idx_facts4 t
  unfold iblk4
  rw [View.read_apply]
  show V c main_v60 _ = V c main_v60 _
  congr 1
  funext a
  apply Fin.ext
  match a with
  | ⟨0, _⟩ => show win4_0.index t 0 * 10000 + 1 * (y 0).val = (k 0).val; rw [e0, hk0]; omega
  | ⟨1, _⟩ => show win4_0.index t 1 * 128 + 1 * (y 1).val = (k 1).val; rw [e1, hk1]; omega

/-- The right operand's block at every point is the whole array. -/
theorem rhs_block4 (c : Dev nD) (t : Fin cfg4.N) (y : S128x64.Idx) :
    (iblk4 V c 1 t : Vec Ideal S128x64 .f32) y = (V c main_arg6 : S128x64.Idx → EReal) y := by
  obtain ⟨-, -, e2, e3, -⟩ := idx_facts4 t
  unfold iblk4
  rw [View.read_apply]
  show V c main_arg6 _ = V c main_arg6 _
  congr 1
  funext a
  apply Fin.ext
  match a with
  | ⟨0, _⟩ => show win4_1.index t 0 * 128 + 1 * (y 0).val = (y 0).val; rw [e2]; omega
  | ⟨1, _⟩ => show win4_1.index t 1 * 64 + 1 * (y 1).val = (y 1).val; rw [e3]; omega

/-- What the region's result array should end holding: the matrix product of the two arrays as the region finds them. -/
abbrev prod4 (c : Dev nD) : S100000x64.Idx → EReal :=
  Cert.Spec.mm (V c main_v60 : S100000x128.Idx → EReal) (V c main_arg6 : S128x64.Idx → EReal)

/-- What point `t` writes back is block `t` of the matrix product. -/
theorem flushed4_eq (c : Dev nD) (t : Fin cfg4.N) :
    (dat4 (F := Ideal) V c).flushed 2 t = ((cfg4.win 2).blk t).view.read (Elt Ideal) (prod4 V c) := by
  show (cfg4.win 2).cut (grid4.coords t) ((dat4 (F := Ideal) V c).after 2 t) = _
  rw [after4_2]
  unfold out4_2
  rw [View.canon_unit_zero hz4]
  simp only [View.ld_unit_zero (S := S10000x128) hz4, View.ld_unit_zero (S := S128x64) hz4]
  obtain ⟨-, -, -, -, e4, e5⟩ := idx_facts4 t
  refine funext fun (j : S10000x64.Idx) => ?_
  refine (pay4_at (iblk4 V c 0 t) (iblk4 V c 1 t) j).trans ?_
  rw [View.read_apply]
  show _ = Cert.Spec.mm (V c main_v60 : S100000x128.Idx → EReal) (V c main_arg6 : S128x64.Idx → EReal)
      (((cfg4.win 2).blk t).view.emb j)
  unfold Cert.Spec.mm
  have h0 : ((((cfg4.win 2).blk t).view.emb j) 0).val = 10000 * t.val + (j 0).val := by
    show win4_2.index t 0 * 10000 + 1 * (j 0).val = _; rw [e4]; omega
  have h1 : ((((cfg4.win 2).blk t).view.emb j) 1).val = (j 1).val := by
    show win4_2.index t 1 * 64 + 1 * (j 1).val = _; rw [e5]; omega
  refine Finset.sum_congr rfl fun d _ => ?_
  refine congrArg₂ (· * ·) (lhs_block4 V c t (ix2 (j 0) d) _ h0 rfl) ?_
  refine (rhs_block4 V c t (ix2 d (j 1))).trans (congrArg (V c main_arg6 : S128x64.Idx → EReal) ?_)
  funext a
  apply Fin.ext
  match a with
  | ⟨0, _⟩ => rfl
  | ⟨1, _⟩ => exact h1.symm

/-- An index of the result array is in point `t`'s block iff its row is one of the block's 10000 rows. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v61).slice (win4_2.rect t)).set ↔ _
  rw [View.set_slice_whole, Rect.mem_set_unit]
  exact Iff.rfl

/-- Every index of the result array is in the block of the point its row falls in: row `r` is in block `r / 10000`. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  let t : Fin cfg4.N := ⟨(i 0).val / 10000, by rw [hN]; omega⟩
  obtain ⟨-, -, -, -, e4, e5⟩ := idx_facts4 t
  have ht : t.val = (i 0).val / 10000 := rfl
  refine ⟨t, flush4_2 t, ?_⟩
  rw [mem_blk4]
  intro a
  match a with
  | ⟨0, _⟩ => show win4_2.index t 0 * 10000 ≤ (i 0).val ∧ (i 0).val < win4_2.index t 0 * 10000 + 10000; rw [e4, ht]; omega
  | ⟨1, _⟩ => show win4_2.index t 1 * 64 ≤ (i 1).val ∧ (i 1).val < win4_2.index t 1 * 64 + 64; rw [e5]; omega

/-- The result array of the region, when the region is left, is the matrix product of the two operand arrays as the
    region found them. -/
theorem region4_value (c : Dev nD) :
    ((dat4 (F := Ideal) V c).arrAt 2 cfg4.N : S100000x64.Idx → EReal)
      = Cert.Spec.mm (V c main_v60 : S100000x128.Idx → EReal) (V c main_arg6 : S128x64.Idx → EReal) :=
  (dat4 (F := Ideal) V c).arrAt_eq_of_cover 2 (prod4 V c) (fun t _ => flushed4_eq V c t) cover4

end Cert.KernelIdeal.RegionValue

end
-- ==== Proof.RegionBiasRelu1.lean ====
import proofs.«132266_j64192581206382_1_alg».proof.Proof.Gen.KernelIdeal.Frame
import proofs.«132266_j64192581206382_1_alg».proof.Proof.Spec
import Idealize.ShloMosaic.Lib.Pipeline.Value
import Idealize.ShloMosaic.Lib.ValueLayout

/-!
  Region 1 of the network: a one-row bias added to every row of a block of rows, then the maximum with zero.

  The region runs over ten blocks of 10000 rows.  At each block the body adds the bias row to every row of the block
  and clamps below at zero; each block is written back to its own rows of the result.  So the result array, entry by
  entry, is `max (x (p, q) + r (0, q)) 0` of the two arrays the region finds: `Cert.Spec.biasRelu`.
-/

set_option maxRecDepth 16384

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets of a whole-buffer access, as a constant function. -/
theorem zero_offsets1 : (![0, 0] : Fin 2 → Nat) = fun _ => 0 := funext fun a => by fin_cases a <;> rfl

/-- The body's arithmetic at row `p`, column `q` of a block: the block's entry plus the bias row's entry in that column,
    clamped below at zero. -/
theorem payload1_apply (x0 : Vec Ideal S10000x128 .f32) (x1 : Vec Ideal S1x128 .f32) (p : Fin 10000) (q : Fin 128) :
    k1_pay1 x0 x1 (ix2 p q) = max (x0 (ix2 p q) + x1 (ix2 (0 : Fin 1) q)) (Ideal.ofBits .f32 0x00000000#32) := by
  unfold k1_pay1
  refine (maximumf_apply _ _ (ix2 p q)).trans ?_
  refine congrArg (fun z => max z (Ideal.ofBits .f32 0x00000000#32)) ?_
  refine (addf_apply _ _ (ix2 p q)).trans ?_
  refine congrArg₂ (· + ·) ?_ ?_
  · exact congrFun (shapeCast_self x0 _) (ix2 p q)
  · refine (broadcastTo_1b_ab_apply _ _ p q).trans ?_
    exact congrFun (shapeCast_self x1 _) (ix2 (0 : Fin 1) q)

/-- A block's result entry is the specification's entry of the whole arrays, as soon as the block's entry is the array's
    entry there, the bias block is the bias row, and the column is the same. -/
theorem block_value1 (x0 : Vec Ideal S10000x128 .f32) (x1 : Vec Ideal S1x128 .f32)
    (a0 : S100000x128.Idx → EReal) (a1 : S1x128.Idx → EReal) (j : S10000x128.Idx) (i : S100000x128.Idx)
    (h0 : x0 j = a0 i) (h1 : ∀ q : Fin 128, x1 (ix2 (0 : Fin 1) q) = a1 (ix2 (0 : Fin 1) q))
    (hi : (i 1).val = (j 1).val) :
    k1_pay1 x0 x1 j = Cert.Spec.biasRelu a0 a1 i := by
  obtain ⟨p, q, rfl⟩ : ∃ (p : Fin 10000) (q : Fin 128), j = ix2 p q := ⟨j 0, j 1, eq_ix2 j⟩
  have hq : i 1 = q := Fin.ext hi
  rw [payload1_apply, h0, h1 q]
  show _ = max (a0 i + a1 (ix2 (0 : Fin 1) (i 1))) (Ideal.ofBits .f32 0x00000000#32)
  rw [hq]

/-- The printed index maps over the ten points: the row blocks of the input and of the result are block `t` at point `t`,
    the bias row's block is always block 0, and no window moves along the columns. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the specification's array. -/
theorem flushed1_eq (c : Dev nD) (t : Fin cfg1.N) :
    (dat1 (F := Ideal) V c).flushed 2 t = ((cfg1.win 2).blk t).view.read (Elt Ideal)
      (Cert.Spec.biasRelu (V c main_v43 : S100000x128.Idx → EReal) (V c main_v44 : S1x128.Idx → EReal)) := by
  show (cfg1.win 2).cut (grid1.coords t) ((dat1 (F := Ideal) V c).after 2 t) = _
  rw [after1_2]
  unfold out1_2
  rw [View.canon_unit_zero zero_offsets1]
  simp only [View.ld_unit_zero (S := S10000x128) zero_offsets1, View.ld_unit_zero (S := S1x128) zero_offsets1]
  obtain ⟨e0, e1, e2, e3, e4, e5⟩ := index_facts1 t
  funext j
  show k1_pay1 (iblk1 V c 0 t) (iblk1 V c 1 t) j
    = Cert.Spec.biasRelu (V c main_v43 : S100000x128.Idx → EReal) (V c main_v44 : S1x128.Idx → EReal) (((cfg1.win 2).blk t).view.emb j)
  refine block_value1 (iblk1 V c 0 t) (iblk1 V c 1 t) (V c main_v43) (V c main_v44) j (((cfg1.win 2).blk t).view.emb j) ?_ ?_ ?_
  · show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · intro q
    show V c main_v44 (((cfg1.win 1).blk t).view.emb (ix2 (0 : Fin 1) q)) = V c main_v44 (ix2 (0 : Fin 1) q)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show win1_2.index t (1 : Fin 2) * 128 + 1 * (j 1).val = (j 1).val
    omega

/-- An index of the result array is in point `t`'s block iff each coordinate is in the block's range on its axis. -/
theorem mem_block1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v45).slice (win1_2.rect t)).set ↔ _
  rw [View.set_slice_whole, Rect.mem_set_unit]
  exact Iff.rfl

/-- Every entry of the result is written: row `r` lies in the block of point `r / 10000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  have ht : t.val = (i 0).val / 10000 := rfl
  refine ⟨t, flush1_2 t, ?_⟩
  rw [mem_block1]
  obtain ⟨e0, e1, e2, e3, e4, e5⟩ := index_facts1 t
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array of region 1, when the region is left, is the bias-and-clamp of the two arrays it found. -/
theorem region1_value (c : Dev nD) :
    ((dat1 (F := Ideal) V c).arrAt 2 cfg1.N : S100000x128.Idx → EReal)
      = Cert.Spec.biasRelu (V c main_v43 : S100000x128.Idx → EReal) (V c main_v44 : S1x128.Idx → EReal) :=
  (dat1 (F := Ideal) V c).arrAt_eq_of_cover 2
    (Cert.Spec.biasRelu (V c main_v43 : S100000x128.Idx → EReal) (V c main_v44 : S1x128.Idx → EReal))
    (fun t _ => flushed1_eq V c t) (cover1)

end Cert.KernelIdeal.RegionValue

end
-- ==== Proof.RegionBiasRelu3.lean ====
import proofs.«132266_j64192581206382_1_alg».proof.Proof.Gen.KernelIdeal.Frame
import proofs.«132266_j64192581206382_1_alg».proof.Proof.Spec
import Idealize.ShloMosaic.Lib.Pipeline.Value
import Idealize.ShloMosaic.Lib.ValueLayout

/-!
  Region 3 of the network: a one-row bias added to every row of a block of rows, then the maximum with zero.

  The region runs over ten blocks of 10000 rows.  At each block the body adds the bias row to every row of the block
  and clamps below at zero; each block is written back to its own rows of the result.  So the result array, entry by
  entry, is `max (x (p, q) + r (0, q)) 0` of the two arrays the region finds: `Cert.Spec.biasRelu`.
-/

set_option maxRecDepth 16384

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets of a whole-buffer access, as a constant function. -/
theorem zero_offsets3 : (![0, 0] : Fin 2 → Nat) = fun _ => 0 := funext fun a => by fin_cases a <;> rfl

/-- The body's arithmetic at row `p`, column `q` of a block: the block's entry plus the bias row's entry in that column,
    clamped below at zero. -/
theorem payload3_apply (x0 : Vec Ideal S10000x128 .f32) (x1 : Vec Ideal S1x128 .f32) (p : Fin 10000) (q : Fin 128) :
    k3_pay1 x0 x1 (ix2 p q) = max (x0 (ix2 p q) + x1 (ix2 (0 : Fin 1) q)) (Ideal.ofBits .f32 0x00000000#32) := by
  unfold k3_pay1
  refine (maximumf_apply _ _ (ix2 p q)).trans ?_
  refine congrArg (fun z => max z (Ideal.ofBits .f32 0x00000000#32)) ?_
  refine (addf_apply _ _ (ix2 p q)).trans ?_
  refine congrArg₂ (· + ·) ?_ ?_
  · exact congrFun (shapeCast_self x0 _) (ix2 p q)
  · refine (broadcastTo_1b_ab_apply _ _ p q).trans ?_
    exact congrFun (shapeCast_self x1 _) (ix2 (0 : Fin 1) q)

/-- A block's result entry is the specification's entry of the whole arrays, as soon as the block's entry is the array's
    entry there, the bias block is the bias row, and the column is the same. -/
theorem block_value3 (x0 : Vec Ideal S10000x128 .f32) (x1 : Vec Ideal S1x128 .f32)
    (a0 : S100000x128.Idx → EReal) (a1 : S1x128.Idx → EReal) (j : S10000x128.Idx) (i : S100000x128.Idx)
    (h0 : x0 j = a0 i) (h1 : ∀ q : Fin 128, x1 (ix2 (0 : Fin 1) q) = a1 (ix2 (0 : Fin 1) q))
    (hi : (i 1).val = (j 1).val) :
    k3_pay1 x0 x1 j = Cert.Spec.biasRelu a0 a1 i := by
  obtain ⟨p, q, rfl⟩ : ∃ (p : Fin 10000) (q : Fin 128), j = ix2 p q := ⟨j 0, j 1, eq_ix2 j⟩
  have hq : i 1 = q := Fin.ext hi
  rw [payload3_apply, h0, h1 q]
  show _ = max (a0 i + a1 (ix2 (0 : Fin 1) (i 1))) (Ideal.ofBits .f32 0x00000000#32)
  rw [hq]

/-- The printed index maps over the ten points: the row blocks of the input and of the result are block `t` at point `t`,
    the bias row's block is always block 0, and no window moves along the columns. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the specification's array. -/
theorem flushed3_eq (c : Dev nD) (t : Fin cfg3.N) :
    (dat3 (F := Ideal) V c).flushed 2 t = ((cfg3.win 2).blk t).view.read (Elt Ideal)
      (Cert.Spec.biasRelu (V c main_v58 : S100000x128.Idx → EReal) (V c main_v59 : S1x128.Idx → EReal)) := by
  show (cfg3.win 2).cut (grid3.coords t) ((dat3 (F := Ideal) V c).after 2 t) = _
  rw [after3_2]
  unfold out3_2
  rw [View.canon_unit_zero zero_offsets3]
  simp only [View.ld_unit_zero (S := S10000x128) zero_offsets3, View.ld_unit_zero (S := S1x128) zero_offsets3]
  obtain ⟨e0, e1, e2, e3, e4, e5⟩ := index_facts3 t
  funext j
  show k3_pay1 (iblk3 V c 0 t) (iblk3 V c 1 t) j
    = Cert.Spec.biasRelu (V c main_v58 : S100000x128.Idx → EReal) (V c main_v59 : S1x128.Idx → EReal) (((cfg3.win 2).blk t).view.emb j)
  refine block_value3 (iblk3 V c 0 t) (iblk3 V c 1 t) (V c main_v58) (V c main_v59) j (((cfg3.win 2).blk t).view.emb j) ?_ ?_ ?_
  · show V c main_v58 (((cfg3.win 0).blk t).view.emb j) = V c main_v58 (((cfg3.win 2).blk t).view.emb j)
    refine congrArg (V c main_v58) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  · intro q
    show V c main_v59 (((cfg3.win 1).blk t).view.emb (ix2 (0 : Fin 1) q)) = V c main_v59 (ix2 (0 : Fin 1) q)
    refine congrArg (V c main_v59) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · show win3_2.index t (1 : Fin 2) * 128 + 1 * (j 1).val = (j 1).val
    omega

/-- An index of the result array is in point `t`'s block iff each coordinate is in the block's range on its axis. -/
theorem mem_block3 (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v60).slice (win3_2.rect t)).set ↔ _
  rw [View.set_slice_whole, Rect.mem_set_unit]
  exact Iff.rfl

/-- Every entry of the result is written: row `r` lies in the block of point `r / 10000`. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  let t : Fin cfg3.N := ⟨(i 0).val / 10000, by rw [hN]; omega⟩
  have ht : t.val = (i 0).val / 10000 := rfl
  refine ⟨t, flush3_2 t, ?_⟩
  rw [mem_block3]
  obtain ⟨e0, e1, e2, e3, e4, e5⟩ := index_facts3 t
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The result array of region 3, when the region is left, is the bias-and-clamp of the two arrays it found. -/
theorem region3_value (c : Dev nD) :
    ((dat3 (F := Ideal) V c).arrAt 2 cfg3.N : S100000x128.Idx → EReal)
      = Cert.Spec.biasRelu (V c main_v58 : S100000x128.Idx → EReal) (V c main_v59 : S1x128.Idx → EReal) :=
  (dat3 (F := Ideal) V c).arrAt_eq_of_cover 2
    (Cert.Spec.biasRelu (V c main_v58 : S100000x128.Idx → EReal) (V c main_v59 : S1x128.Idx → EReal))
    (fun t _ => flushed3_eq V c t) (cover3)

end Cert.KernelIdeal.RegionValue

end
-- ==== Proof.RegionBiasRelu5.lean ====
import proofs.«132266_j64192581206382_1_alg».proof.Proof.Gen.KernelIdeal.Frame
import proofs.«132266_j64192581206382_1_alg».proof.Proof.Spec
import Idealize.ShloMosaic.Lib.Pipeline.Value
import Idealize.ShloMosaic.Lib.ValueLayout

/-!
  Region 5 of the network: a one-row bias added to every row of a block of rows, then the maximum with zero.

  The region runs over ten blocks of 10000 rows.  At each block the body adds the bias row to every row of the block
  and clamps below at zero; each block is written back to its own rows of the result.  So the result array, entry by
  entry, is `max (x (p, q) + r (0, q)) 0` of the two arrays the region finds: `Cert.Spec.biasRelu`.
-/

set_option maxRecDepth 16384

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets of a whole-buffer access, as a constant function. -/
theorem zero_offsets5 : (![0, 0] : Fin 2 → Nat) = fun _ => 0 := funext fun a => by fin_cases a <;> rfl

/-- The body's arithmetic at row `p`, column `q` of a block: the block's entry plus the bias row's entry in that column,
    clamped below at zero. -/
theorem payload5_apply (x0 : Vec Ideal S10000x64 .f32) (x1 : Vec Ideal S1x64 .f32) (p : Fin 10000) (q : Fin 64) :
    k5_pay1 x0 x1 (ix2 p q) = max (x0 (ix2 p q) + x1 (ix2 (0 : Fin 1) q)) (Ideal.ofBits .f32 0x00000000#32) := by
  unfold k5_pay1
  refine (maximumf_apply _ _ (ix2 p q)).trans ?_
  refine congrArg (fun z => max z (Ideal.ofBits .f32 0x00000000#32)) ?_
  refine (addf_apply _ _ (ix2 p q)).trans ?_
  refine congrArg₂ (· + ·) ?_ ?_
  · exact congrFun (shapeCast_self x0 _) (ix2 p q)
  · refine (broadcastTo_1b_ab_apply _ _ p q).trans ?_
    exact congrFun (shapeCast_self x1 _) (ix2 (0 : Fin 1) q)

/-- A block's result entry is the specification's entry of the whole arrays, as soon as the block's entry is the array's
    entry there, the bias block is the bias row, and the column is the same. -/
theorem block_value5 (x0 : Vec Ideal S10000x64 .f32) (x1 : Vec Ideal S1x64 .f32)
    (a0 : S100000x64.Idx → EReal) (a1 : S1x64.Idx → EReal) (j : S10000x64.Idx) (i : S100000x64.Idx)
    (h0 : x0 j = a0 i) (h1 : ∀ q : Fin 64, x1 (ix2 (0 : Fin 1) q) = a1 (ix2 (0 : Fin 1) q))
    (hi : (i 1).val = (j 1).val) :
    k5_pay1 x0 x1 j = Cert.Spec.biasRelu a0 a1 i := by
  obtain ⟨p, q, rfl⟩ : ∃ (p : Fin 10000) (q : Fin 64), j = ix2 p q := ⟨j 0, j 1, eq_ix2 j⟩
  have hq : i 1 = q := Fin.ext hi
  rw [payload5_apply, h0, h1 q]
  show _ = max (a0 i + a1 (ix2 (0 : Fin 1) (i 1))) (Ideal.ofBits .f32 0x00000000#32)
  rw [hq]

/-- The printed index maps over the ten points: the row blocks of the input and of the result are block `t` at point `t`,
    the bias row's block is always block 0, and no window moves along the columns. -/
theorem index_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the specification's array. -/
theorem flushed5_eq (c : Dev nD) (t : Fin cfg5.N) :
    (dat5 (F := Ideal) V c).flushed 2 t = ((cfg5.win 2).blk t).view.read (Elt Ideal)
      (Cert.Spec.biasRelu (V c main_v73 : S100000x64.Idx → EReal) (V c main_v74 : S1x64.Idx → EReal)) := by
  show (cfg5.win 2).cut (grid5.coords t) ((dat5 (F := Ideal) V c).after 2 t) = _
  rw [after5_2]
  unfold out5_2
  rw [View.canon_unit_zero zero_offsets5]
  simp only [View.ld_unit_zero (S := S10000x64) zero_offsets5, View.ld_unit_zero (S := S1x64) zero_offsets5]
  obtain ⟨e0, e1, e2, e3, e4, e5⟩ := index_facts5 t
  funext j
  show k5_pay1 (iblk5 V c 0 t) (iblk5 V c 1 t) j
    = Cert.Spec.biasRelu (V c main_v73 : S100000x64.Idx → EReal) (V c main_v74 : S1x64.Idx → EReal) (((cfg5.win 2).blk t).view.emb j)
  refine block_value5 (iblk5 V c 0 t) (iblk5 V c 1 t) (V c main_v73) (V c main_v74) j (((cfg5.win 2).blk t).view.emb j) ?_ ?_ ?_
  · show V c main_v73 (((cfg5.win 0).blk t).view.emb j) = V c main_v73 (((cfg5.win 2).blk t).view.emb j)
    refine congrArg (V c main_v73) (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  · intro q
    show V c main_v74 (((cfg5.win 1).blk t).view.emb (ix2 (0 : Fin 1) q)) = V c main_v74 (ix2 (0 : Fin 1) q)
    refine congrArg (V c main_v74) (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega
  · show win5_2.index t (1 : Fin 2) * 64 + 1 * (j 1).val = (j 1).val
    omega

/-- An index of the result array is in point `t`'s block iff each coordinate is in the block's range on its axis. -/
theorem mem_block5 (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v75).slice (win5_2.rect t)).set ↔ _
  rw [View.set_slice_whole, Rect.mem_set_unit]
  exact Iff.rfl

/-- Every entry of the result is written: row `r` lies in the block of point `r / 10000`. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  let t : Fin cfg5.N := ⟨(i 0).val / 10000, by rw [hN]; omega⟩
  have ht : t.val = (i 0).val / 10000 := rfl
  refine ⟨t, flush5_2 t, ?_⟩
  rw [mem_block5]
  obtain ⟨e0, e1, e2, e3, e4, e5⟩ := index_facts5 t
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The result array of region 5, when the region is left, is the bias-and-clamp of the two arrays it found. -/
theorem region5_value (c : Dev nD) :
    ((dat5 (F := Ideal) V c).arrAt 2 cfg5.N : S100000x64.Idx → EReal)
      = Cert.Spec.biasRelu (V c main_v73 : S100000x64.Idx → EReal) (V c main_v74 : S1x64.Idx → EReal) :=
  (dat5 (F := Ideal) V c).arrAt_eq_of_cover 2
    (Cert.Spec.biasRelu (V c main_v73 : S100000x64.Idx → EReal) (V c main_v74 : S1x64.Idx → EReal))
    (fun t _ => flushed5_eq V c t) (cover5)

end Cert.KernelIdeal.RegionValue

end
-- ==== Proof.RegionHead6Payload.lean ====
/-
  The dense head of the network on one block of 10000 rows, read entry by entry over the extended reals.

  The body computes, from a block `xl` of ten features per row and a block `h` of sixty-four, with weights
  `wp`, `wfh`, `wfp`, `wr` and one-row biases `bp`, `bf`, `br`:
    • the projection: the product `xl · wp`, the row `bp` added to every row, the maximum with zero;
    • the fusion: the sum of the two products `h · wfh` and `projection · wfp`, the row `bf` added to every
      row, the maximum with zero;
    • the regression: the product `fusion · wr`, the single entry of `br` added, the logistic function.
  Narrowing a float is the identity on the extended reals, a cast to the same shape is the identity, and a
  one-row array broadcast down the rows reads its own entry of the column; so each stage, at an entry, is the
  stage of the specification at that entry, and their composition is `Cert.Spec.head`.
  The zero of the two clamps is the word 0x00000000 read as a float on both sides, never evaluated.

  Last, row `p` of the head depends on row `p` of `xl` and of `h` only: two pairs of arrays that agree on a
  row each (whatever the two row numbers) give the same entry. That is what lets a block of rows stand for the
  whole array.
-/
import proofs.«132266_j64192581206382_1_alg».proof.Proof.Gen.KernelIdeal.Skeleton
import proofs.«132266_j64192581206382_1_alg».proof.Proof.Spec
import proofs.«132266_j64192581206382_1_alg».proof.Proof.LibMatmulRead
import Idealize.ShloMosaic.Lib.ValueLayout

set_option maxRecDepth 16384

noncomputable section

namespace Cert.KernelIdeal.RegionValue

open Idealize.ShloMosaic Idealize.ShloMosaic.ValueIdx Idealize.SL.Sem
open Cert.KernelIdeal Cert.KernelIdeal.Gen

/-! ## The stages of the body at an entry -/

/-- The projection stage of the body: `max (xl · wp + bp) 0`, as the body writes it. -/
def proj6 (x0 : Vec Ideal S10000x10 .f32) (w3 : Vec Ideal S10x32 .f32) (b6 : Vec Ideal S1x32 .f32) :
    FVec Ideal S10000x32 .f32 :=
  maximumf
    (addf
      (matmul dot_S10000x10_S10x32_S10000x32_1_0_0_1_n_n none
        (truncf .bf16 (shapeCast S10000x10 x0 shapeCasts_S10000x10_S10000x10) bitsLt_bf16_f32)
        (truncf .bf16 w3 bitsLt_bf16_f32) (constant (F := Ideal) S10000x32 .f32 0x00000000#32))
      (broadcastTo S10000x32 (shapeCast S1x32 b6 shapeCasts_S1x32_S1x32) broadcasts_S1x32_S10000x32))
    (broadcast S10000x32 (Scalar.ofBits (F := Ideal) .f32 0x00000000#32))

/-- The projection at an entry is the specification's. -/
theorem proj6_apply (x0 : Vec Ideal S10000x10 .f32) (w3 : Vec Ideal S10x32 .f32) (b6 : Vec Ideal S1x32 .f32)
    (p : Fin 10000) (e : Fin 32) :
    proj6 x0 w3 b6 (ix2 p e) = Cert.Spec.biasRelu (Cert.Spec.mm x0 w3) b6 (ix2 p e) := by
  unfold proj6
  refine (maximumf_apply _ _ _).trans (congrArg₂ max ?_ rfl)
  refine (addf_apply _ _ _).trans (congrArg₂ (· + ·) ?_ ?_)
  · refine (matmul_ix2_apply _ rfl rfl rfl rfl rfl rfl none _ _ p e).trans ?_
    exact Finset.sum_congr rfl fun d _ =>
      congrArg₂ (· * ·) (congrFun (shapeCast_self x0 shapeCasts_S10000x10_S10000x10) (ix2 p d)) rfl
  · exact (broadcastTo_1b_ab_apply _ _ p e).trans (congrFun (shapeCast_self b6 shapeCasts_S1x32_S1x32) _)

/-- The fusion stage of the body: `max (h · wfh + projection · wfp + bf) 0`, as the body writes it. -/
def fused6 (x0 : Vec Ideal S10000x10 .f32) (w3 : Vec Ideal S10x32 .f32) (b6 : Vec Ideal S1x32 .f32)
    (h12 : Vec Ideal S10000x64 .f32) (w16 : Vec Ideal S64x64 .f32) (w19 : Vec Ideal S32x64 .f32)
    (b25 : Vec Ideal S1x64 .f32) : FVec Ideal S10000x64 .f32 :=
  maximumf
    (addf
      (addf
        (matmul dot_S10000x64_S64x64_S10000x64_1_0_0_1_n_n none
          (truncf .bf16 (shapeCast S10000x64 h12 shapeCasts_S10000x64_S10000x64) bitsLt_bf16_f32)
          (truncf .bf16 (shapeCast S64x64 w16 shapeCasts_S64x64_S64x64) bitsLt_bf16_f32)
          (constant (F := Ideal) S10000x64 .f32 0x00000000#32))
        (matmul dot_S10000x32_S32x64_S10000x64_1_0_0_1_n_n none
          (truncf .bf16 (proj6 x0 w3 b6) bitsLt_bf16_f32)
          (truncf .bf16 (shapeCast S32x64 w19 shapeCasts_S32x64_S32x64) bitsLt_bf16_f32)
          (constant (F := Ideal) S10000x64 .f32 0x00000000#32)))
      (broadcastTo S10000x64 (shapeCast S1x64 b25 shapeCasts_S1x64_S1x64) broadcasts_S1x64_S10000x64))
    (broadcast S10000x64 (Scalar.ofBits (F := Ideal) .f32 0x00000000#32))

/-- The fusion at an entry is the specification's. -/
theorem fused6_apply (x0 : Vec Ideal S10000x10 .f32) (w3 : Vec Ideal S10x32 .f32) (b6 : Vec Ideal S1x32 .f32)
    (h12 : Vec Ideal S10000x64 .f32) (w16 : Vec Ideal S64x64 .f32) (w19 : Vec Ideal S32x64 .f32)
    (b25 : Vec Ideal S1x64 .f32) (p : Fin 10000) (k : Fin 64) :
    fused6 x0 w3 b6 h12 w16 w19 b25 (ix2 p k)
      = Cert.Spec.biasRelu (fun j => Cert.Spec.mm h12 w16 j
          + Cert.Spec.mm (Cert.Spec.biasRelu (Cert.Spec.mm x0 w3) b6) w19 j) b25 (ix2 p k) := by
  unfold fused6
  refine (maximumf_apply _ _ _).trans (congrArg₂ max ?_ rfl)
  refine (addf_apply _ _ _).trans (congrArg₂ (· + ·) ?_ ?_)
  · refine (addf_apply _ _ _).trans (congrArg₂ (· + ·) ?_ ?_)
    · refine (matmul_ix2_apply _ rfl rfl rfl rfl rfl rfl none _ _ p k).trans ?_
      exact Finset.sum_congr rfl fun d _ =>
        congrArg₂ (· * ·) (congrFun (shapeCast_self h12 shapeCasts_S10000x64_S10000x64) (ix2 p d))
          (congrFun (shapeCast_self w16 shapeCasts_S64x64_S64x64) (ix2 d k))
    · refine (matmul_ix2_apply _ rfl rfl rfl rfl rfl rfl none _ _ p k).trans ?_
      exact Finset.sum_congr rfl fun e _ =>
        congrArg₂ (· * ·) (proj6_apply x0 w3 b6 p e)
          (congrFun (shapeCast_self w19 shapeCasts_S32x64_S32x64) (ix2 e k))
  · exact (broadcastTo_1b_ab_apply _ _ p k).trans (congrFun (shapeCast_self b25 shapeCasts_S1x64_S1x64) _)

/-! ## The two payloads -/

/-- The value before the last step is the product of the fusion stage with the regression weights: the term, unfolded. -/
theorem pay2_eq6 (x0 : Vec Ideal S10000x10 .f32) (w3 : Vec Ideal S10x32 .f32) (b6 : Vec Ideal S1x32 .f32)
    (h12 : Vec Ideal S10000x64 .f32) (w16 : Vec Ideal S64x64 .f32) (w19 : Vec Ideal S32x64 .f32)
    (b25 : Vec Ideal S1x64 .f32) (w31 : Vec Ideal S64x1 .f32) :
    k6_pay2 x0 w3 b6 h12 w16 w19 b25 w31
      = matmul dot_S10000x64_S64x1_S10000x1_1_0_0_1_n_n none
          (truncf .bf16 (fused6 x0 w3 b6 h12 w16 w19 b25) bitsLt_bf16_f32) (truncf .bf16 w31 bitsLt_bf16_f32)
          (constant (F := Ideal) S10000x1 .f32 0x00000000#32) := rfl

/-- That value at an entry: the product of the specification's fusion with the regression weights. -/
theorem pay2_apply6 (x0 : Vec Ideal S10000x10 .f32) (w3 : Vec Ideal S10x32 .f32) (b6 : Vec Ideal S1x32 .f32)
    (h12 : Vec Ideal S10000x64 .f32) (w16 : Vec Ideal S64x64 .f32) (w19 : Vec Ideal S32x64 .f32)
    (b25 : Vec Ideal S1x64 .f32) (w31 : Vec Ideal S64x1 .f32) (p : Fin 10000) (u : Fin 1) :
    k6_pay2 x0 w3 b6 h12 w16 w19 b25 w31 (ix2 p u)
      = Cert.Spec.mm (Cert.Spec.biasRelu (fun j => Cert.Spec.mm h12 w16 j
          + Cert.Spec.mm (Cert.Spec.biasRelu (Cert.Spec.mm x0 w3) b6) w19 j) b25) w31 (ix2 p u) := by
  refine (congrFun (pay2_eq6 x0 w3 b6 h12 w16 w19 b25 w31) (ix2 p u)).trans ?_
  refine (matmul_ix2_apply _ rfl rfl rfl rfl rfl rfl none _ _ p u).trans ?_
  exact Finset.sum_congr rfl fun k _ => congrArg₂ (· * ·) (fused6_apply x0 w3 b6 h12 w16 w19 b25 p k) rfl

/-- The last step at an entry: the single entry of the bias added, then the logistic function. -/
theorem pay1_apply6 (y : FVec Ideal S10000x1 .f32) (b35 : Vec Ideal S1x1 .f32) (p : Fin 10000) (u : Fin 1) :
    k6_pay1 y b35 (ix2 p u) = Ideal.logistic (y (ix2 p u) + b35 (ix2 (0 : Fin 1) u)) := by
  unfold k6_pay1
  refine congrArg Ideal.logistic ?_
  refine (addf_apply _ _ _).trans (congrArg₂ (· + ·) rfl ?_)
  exact (broadcastTo_1b_ab_apply _ _ p u).trans (congrFun (shapeCast_self b35 shapeCasts_S1x1_S1x1) _)

/-- What the body stores, at row `p` of the block: the specification's head of the block's arrays. -/
theorem payload6_apply (x0 : Vec Ideal S10000x10 .f32) (w3 : Vec Ideal S10x32 .f32) (b6 : Vec Ideal S1x32 .f32)
    (h12 : Vec Ideal S10000x64 .f32) (w16 : Vec Ideal S64x64 .f32) (w19 : Vec Ideal S32x64 .f32)
    (b25 : Vec Ideal S1x64 .f32) (w31 : Vec Ideal S64x1 .f32) (b35 : Vec Ideal S1x1 .f32) (p : Fin 10000) :
    k6_pay1 (k6_pay2 x0 w3 b6 h12 w16 w19 b25 w31) b35 (ix2 p (0 : Fin 1))
      = Cert.Spec.head x0 h12 w3 b6 w16 w19 b25 w31 b35 (ix2 p (0 : Fin 1)) :=
  (pay1_apply6 _ b35 p 0).trans
    (congrArg (fun z => Ideal.logistic (z + b35 (ix2 (0 : Fin 1) (0 : Fin 1))))
      (pay2_apply6 x0 w3 b6 h12 w16 w19 b25 w31 p 0))

/-! ## A row of the head depends on that row of the two row-indexed arrays only -/

/-- A product's entry in row `p` reads row `p` of the left operand only. -/
theorem mm_rows6 {a a' k b : ℕ} (x : (⟨2, ![a, k]⟩ : Shape).Idx → EReal) (x' : (⟨2, ![a', k]⟩ : Shape).Idx → EReal)
    (w : (⟨2, ![k, b]⟩ : Shape).Idx → EReal) (p : Fin a) (p' : Fin a') (q : Fin b)
    (h : ∀ d : Fin k, x (ix2 p d) = x' (ix2 p' d)) :
    Cert.Spec.mm x w (ix2 p q) = Cert.Spec.mm x' w (ix2 p' q) :=
  Finset.sum_congr rfl fun d _ => congrArg (· * w (ix2 d q)) (h d)

/-- A bias-and-clamp's entry reads that entry of its array only. -/
theorem biasRelu_rows6 {a a' b : ℕ} (x : (⟨2, ![a, b]⟩ : Shape).Idx → EReal) (x' : (⟨2, ![a', b]⟩ : Shape).Idx → EReal)
    (r : (⟨2, ![1, b]⟩ : Shape).Idx → EReal) (p : Fin a) (p' : Fin a') (q : Fin b)
    (h : x (ix2 p q) = x' (ix2 p' q)) :
    Cert.Spec.biasRelu x r (ix2 p q) = Cert.Spec.biasRelu x' r (ix2 p' q) :=
  congrArg (fun z => max (z + r (ix2 (0 : Fin 1) q)) (Ideal.ofBits .f32 0x00000000#32)) h

/-- The head's entry in row `p` reads row `p` of the features and of `h` only. -/
theorem head_rows6 {a a' : ℕ} (xl : (⟨2, ![a, 10]⟩ : Shape).Idx → EReal) (xl' : (⟨2, ![a', 10]⟩ : Shape).Idx → EReal)
    (h : (⟨2, ![a, 64]⟩ : Shape).Idx → EReal) (h' : (⟨2, ![a', 64]⟩ : Shape).Idx → EReal)
    (wp : (⟨2, ![10, 32]⟩ : Shape).Idx → EReal) (bp : (⟨2, ![1, 32]⟩ : Shape).Idx → EReal)
    (wfh : (⟨2, ![64, 64]⟩ : Shape).Idx → EReal) (wfp : (⟨2, ![32, 64]⟩ : Shape).Idx → EReal)
    (bf : (⟨2, ![1, 64]⟩ : Shape).Idx → EReal) (wr : (⟨2, ![64, 1]⟩ : Shape).Idx → EReal)
    (br : (⟨2, ![1, 1]⟩ : Shape).Idx → EReal) (p : Fin a) (p' : Fin a')
    (hx : ∀ d : Fin 10, xl (ix2 p d) = xl' (ix2 p' d)) (hh : ∀ d : Fin 64, h (ix2 p d) = h' (ix2 p' d)) :
    Cert.Spec.head xl h wp bp wfh wfp bf wr br (ix2 p (0 : Fin 1))
      = Cert.Spec.head xl' h' wp bp wfh wfp bf wr br (ix2 p' (0 : Fin 1)) := by
  refine congrArg (fun z => Ideal.logistic (z + br (ix2 (0 : Fin 1) (0 : Fin 1)))) ?_
  refine mm_rows6 _ _ wr p p' 0 fun k => ?_
  refine biasRelu_rows6 _ _ bf p p' k ?_
  refine congrArg₂ (· + ·) (mm_rows6 h h' wfh p p' k hh) (mm_rows6 _ _ wfp p p' k fun e => ?_)
  exact biasRelu_rows6 _ _ bp p p' e (mm_rows6 xl xl' wp p p' e hx)

end Cert.KernelIdeal.RegionValue

end
-- ==== Proof.RegionHead6.lean ====
/-
  Region 6 of the network: the dense head, over ten blocks of 10000 rows.

  At each of the ten points the body reads block `t` of the ten features and of `h` (rows `10000 t … 10000 t + 9999`)
  and the seven small arrays whole, and stores, for each row of the block, the head of that row: projection, bias and
  clamp, fusion with `h`, bias and clamp, regression, bias, logistic function. Each block is written back to its own
  rows of the result, and the ten blocks fill it: row `r` lies in the block of point `r / 10000`. A row of the head
  reads that row of the two row-indexed arrays only, so the block's value at its row `p` is the whole arrays' head at
  row `10000 t + p`. Hence the result array, entry by entry, is `Cert.Spec.head` of the nine arrays the region finds.
-/
import proofs.«132266_j64192581206382_1_alg».proof.Proof.Gen.KernelIdeal.Frame
import proofs.«132266_j64192581206382_1_alg».proof.Proof.Spec
import proofs.«132266_j64192581206382_1_alg».proof.Proof.LibMatmulRead
import proofs.«132266_j64192581206382_1_alg».proof.Proof.RegionHead6Payload
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets of a whole-buffer access, as a constant function. -/
theorem zero_offsets6 : (![0, 0] : Fin 2 → Nat) = fun _ => 0 := funext fun a => by fin_cases a <;> rfl

/-- A block's stored entry is the head of the whole arrays at an entry of the result, as soon as the block's row of
    the features and of `h` is the arrays' row there and each small block is its whole array. -/
theorem head_block6 (x0 : Vec Ideal S10000x10 .f32) (x1 : Vec Ideal S10000x64 .f32) (x2 : Vec Ideal S10x32 .f32)
    (x3 : Vec Ideal S1x32 .f32) (x4 : Vec Ideal S64x64 .f32) (x5 : Vec Ideal S32x64 .f32) (x6 : Vec Ideal S1x64 .f32)
    (x7 : Vec Ideal S64x1 .f32) (x8 : Vec Ideal S1x1 .f32)
    (a0 : S100000x10.Idx → EReal) (a1 : S100000x64.Idx → EReal) (a2 : S10x32.Idx → EReal) (a3 : S1x32.Idx → EReal)
    (a4 : S64x64.Idx → EReal) (a5 : S32x64.Idx → EReal) (a6 : S1x64.Idx → EReal) (a7 : S64x1.Idx → EReal)
    (a8 : S1x1.Idx → EReal) (j : S10000x1.Idx) (i : S100000x1.Idx)
    (h0 : ∀ d : Fin 10, x0 (ix2 (j 0) d) = a0 (ix2 (i 0) d))
    (h1 : ∀ d : Fin 64, x1 (ix2 (j 0) d) = a1 (ix2 (i 0) d))
    (h2 : ∀ y, x2 y = a2 y) (h3 : ∀ y, x3 y = a3 y) (h4 : ∀ y, x4 y = a4 y) (h5 : ∀ y, x5 y = a5 y)
    (h6 : ∀ y, x6 y = a6 y) (h7 : ∀ y, x7 y = a7 y) (h8 : ∀ y, x8 y = a8 y) :
    k6_pay1 (k6_pay2 x0 x2 x3 x1 x4 x5 x6 x7) x8 j = Cert.Spec.head a0 a1 a2 a3 a4 a5 a6 a7 a8 i := by
  obtain rfl : x2 = a2 := funext h2
  obtain rfl : x3 = a3 := funext h3
  obtain rfl : x4 = a4 := funext h4
  obtain rfl : x5 = a5 := funext h5
  obtain rfl : x6 = a6 := funext h6
  obtain rfl : x7 = a7 := funext h7
  obtain rfl : x8 = a8 := funext h8
  obtain ⟨p, u, rfl⟩ : ∃ (p : Fin 10000) (u : Fin 1), j = ix2 p u := ⟨j 0, j 1, eq_ix2 j⟩
  obtain ⟨r, v, rfl⟩ : ∃ (r : Fin 100000) (v : Fin 1), i = ix2 r v := ⟨i 0, i 1, eq_ix2 i⟩
  obtain rfl : u = 0 := Subsingleton.elim _ _
  obtain rfl : v = 0 := Subsingleton.elim _ _
  exact (payload6_apply x0 x2 x3 x1 x4 x5 x6 x7 x8 p).trans
    (head_rows6 x0 a0 x1 a1 x2 x3 x4 x5 x6 x7 x8 p r h0 h1)

/-- The printed index maps over the ten points: the row blocks of the features, of `h` and of the result are block
    `t` at point `t`; each small array's block is always block 0; no window moves along the columns. -/
theorem index_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = t.val ∧ win6_9.index t (1 : Fin 2) = 0 :=
  (by decide +kernel : ∀ t : Fin grid6.N, _)

/-- Row `p` of block `t` of the ten features is row `10000 t + p` of the array the region finds. -/
theorem iblk6_0_apply (c : Dev nD) (t : Fin cfg6.N) (p : Fin 10000) (d : Fin 10) (i : S100000x10.Idx)
    (hi0 : (i 0).val = t.val * 10000 + p.val) (hi1 : (i 1).val = d.val) :
    (iblk6 V c 0 t : Vec Ideal S10000x10 .f32) (ix2 p d) = (V c main_v76 : S100000x10.Idx → EReal) i := by
  obtain ⟨e00, e01, e10, e11, e20, e21, e30, e31, e40, e41, e50, e51, e60, e61, e70, e71, e80, e81, e90, e91⟩ :=
    index_facts6 t
  show V c main_v76 (((cfg6.win 0).blk t).view.emb (ix2 p d)) = V c main_v76 i
  refine congrArg (V c main_v76) (funext fun a => Fin.ext ?_)
  match a with
  | ⟨0, _⟩ => show win6_0.index t (0 : Fin 2) * 10000 + 1 * p.val = (i 0).val; omega
  | ⟨1, _⟩ => show win6_0.index t (1 : Fin 2) * 10 + 1 * d.val = (i 1).val; omega

/-- Row `p` of block `t` of `h` is row `10000 t + p` of the array the region finds. -/
theorem iblk6_1_apply (c : Dev nD) (t : Fin cfg6.N) (p : Fin 10000) (d : Fin 64) (i : S100000x64.Idx)
    (hi0 : (i 0).val = t.val * 10000 + p.val) (hi1 : (i 1).val = d.val) :
    (iblk6 V c 1 t : Vec Ideal S10000x64 .f32) (ix2 p d) = (V c main_v75 : S100000x64.Idx → EReal) i := by
  obtain ⟨e00, e01, e10, e11, e20, e21, e30, e31, e40, e41, e50, e51, e60, e61, e70, e71, e80, e81, e90, e91⟩ :=
    index_facts6 t
  show V c main_v75 (((cfg6.win 1).blk t).view.emb (ix2 p d)) = V c main_v75 i
  refine congrArg (V c main_v75) (funext fun a => Fin.ext ?_)
  match a with
  | ⟨0, _⟩ => show win6_1.index t (0 : Fin 2) * 10000 + 1 * p.val = (i 0).val; omega
  | ⟨1, _⟩ => show win6_1.index t (1 : Fin 2) * 64 + 1 * d.val = (i 1).val; omega

/-- The block of the projection weights is the whole array at every point. -/
theorem iblk6_2_apply (c : Dev nD) (t : Fin cfg6.N) (y : S10x32.Idx) :
    (iblk6 V c 2 t : Vec Ideal S10x32 .f32) y = (V c main_arg8 : S10x32.Idx → EReal) y := by
  obtain ⟨e00, e01, e10, e11, e20, e21, e30, e31, e40, e41, e50, e51, e60, e61, e70, e71, e80, e81, e90, e91⟩ :=
    index_facts6 t
  show V c main_arg8 (((cfg6.win 2).blk t).view.emb y) = V c main_arg8 y
  refine congrArg (V c main_arg8) (funext fun a => Fin.ext ?_)
  match a with
  | ⟨0, _⟩ => show win6_2.index t (0 : Fin 2) * 10 + 1 * (y 0).val = (y 0).val; omega
  | ⟨1, _⟩ => show win6_2.index t (1 : Fin 2) * 32 + 1 * (y 1).val = (y 1).val; omega

/-- The block of the projection bias is the whole array at every point. -/
theorem iblk6_3_apply (c : Dev nD) (t : Fin cfg6.N) (y : S1x32.Idx) :
    (iblk6 V c 3 t : Vec Ideal S1x32 .f32) y = (V c main_v79 : S1x32.Idx → EReal) y := by
  obtain ⟨e00, e01, e10, e11, e20, e21, e30, e31, e40, e41, e50, e51, e60, e61, e70, e71, e80, e81, e90, e91⟩ :=
    index_facts6 t
  show V c main_v79 (((cfg6.win 3).blk t).view.emb y) = V c main_v79 y
  refine congrArg (V c main_v79) (funext fun a => Fin.ext ?_)
  match a with
  | ⟨0, _⟩ => show win6_3.index t (0 : Fin 2) * 1 + 1 * (y 0).val = (y 0).val; omega
  | ⟨1, _⟩ => show win6_3.index t (1 : Fin 2) * 32 + 1 * (y 1).val = (y 1).val; omega

/-- The block of the fusion weights that meet `h` is the whole array at every point. -/
theorem iblk6_4_apply (c : Dev nD) (t : Fin cfg6.N) (y : S64x64.Idx) :
    (iblk6 V c 4 t : Vec Ideal S64x64 .f32) y = (V c main_v77 : S64x64.Idx → EReal) y := by
  obtain ⟨e00, e01, e10, e11, e20, e21, e30, e31, e40, e41, e50, e51, e60, e61, e70, e71, e80, e81, e90, e91⟩ :=
    index_facts6 t
  show V c main_v77 (((cfg6.win 4).blk t).view.emb y) = V c main_v77 y
  refine congrArg (V c main_v77) (funext fun a => Fin.ext ?_)
  match a with
  | ⟨0, _⟩ => show win6_4.index t (0 : Fin 2) * 64 + 1 * (y 0).val = (y 0).val; omega
  | ⟨1, _⟩ => show win6_4.index t (1 : Fin 2) * 64 + 1 * (y 1).val = (y 1).val; omega

/-- The block of the fusion weights that meet the projection is the whole array at every point. -/
theorem iblk6_5_apply (c : Dev nD) (t : Fin cfg6.N) (y : S32x64.Idx) :
    (iblk6 V c 5 t : Vec Ideal S32x64 .f32) y = (V c main_v78 : S32x64.Idx → EReal) y := by
  obtain ⟨e00, e01, e10, e11, e20, e21, e30, e31, e40, e41, e50, e51, e60, e61, e70, e71, e80, e81, e90, e91⟩ :=
    index_facts6 t
  show V c main_v78 (((cfg6.win 5).blk t).view.emb y) = V c main_v78 y
  refine congrArg (V c main_v78) (funext fun a => Fin.ext ?_)
  match a with
  | ⟨0, _⟩ => show win6_5.index t (0 : Fin 2) * 32 + 1 * (y 0).val = (y 0).val; omega
  | ⟨1, _⟩ => show win6_5.index t (1 : Fin 2) * 64 + 1 * (y 1).val = (y 1).val; omega

/-- The block of the fusion bias is the whole array at every point. -/
theorem iblk6_6_apply (c : Dev nD) (t : Fin cfg6.N) (y : S1x64.Idx) :
    (iblk6 V c 6 t : Vec Ideal S1x64 .f32) y = (V c main_v80 : S1x64.Idx → EReal) y := by
  obtain ⟨e00, e01, e10, e11, e20, e21, e30, e31, e40, e41, e50, e51, e60, e61, e70, e71, e80, e81, e90, e91⟩ :=
    index_facts6 t
  show V c main_v80 (((cfg6.win 6).blk t).view.emb y) = V c main_v80 y
  refine congrArg (V c main_v80) (funext fun a => Fin.ext ?_)
  match a with
  | ⟨0, _⟩ => show win6_6.index t (0 : Fin 2) * 1 + 1 * (y 0).val = (y 0).val; omega
  | ⟨1, _⟩ => show win6_6.index t (1 : Fin 2) * 64 + 1 * (y 1).val = (y 1).val; omega

/-- The block of the regression weights is the whole array at every point. -/
theorem iblk6_7_apply (c : Dev nD) (t : Fin cfg6.N) (y : S64x1.Idx) :
    (iblk6 V c 7 t : Vec Ideal S64x1 .f32) y = (V c main_arg12 : S64x1.Idx → EReal) y := by
  obtain ⟨e00, e01, e10, e11, e20, e21, e30, e31, e40, e41, e50, e51, e60, e61, e70, e71, e80, e81, e90, e91⟩ :=
    index_facts6 t
  show V c main_arg12 (((cfg6.win 7).blk t).view.emb y) = V c main_arg12 y
  refine congrArg (V c main_arg12) (funext fun a => Fin.ext ?_)
  match a with
  | ⟨0, _⟩ => show win6_7.index t (0 : Fin 2) * 64 + 1 * (y 0).val = (y 0).val; omega
  | ⟨1, _⟩ => show win6_7.index t (1 : Fin 2) * 1 + 1 * (y 1).val = (y 1).val; omega

/-- The block of the regression bias is the whole array at every point. -/
theorem iblk6_8_apply (c : Dev nD) (t : Fin cfg6.N) (y : S1x1.Idx) :
    (iblk6 V c 8 t : Vec Ideal S1x1 .f32) y = (V c main_v81 : S1x1.Idx → EReal) y := by
  obtain ⟨e00, e01, e10, e11, e20, e21, e30, e31, e40, e41, e50, e51, e60, e61, e70, e71, e80, e81, e90, e91⟩ :=
    index_facts6 t
  show V c main_v81 (((cfg6.win 8).blk t).view.emb y) = V c main_v81 y
  refine congrArg (V c main_v81) (funext fun a => Fin.ext ?_)
  match a with
  | ⟨0, _⟩ => show win6_8.index t (0 : Fin 2) * 1 + 1 * (y 0).val = (y 0).val; omega
  | ⟨1, _⟩ => show win6_8.index t (1 : Fin 2) * 1 + 1 * (y 1).val = (y 1).val; omega

/-- Row `p` of the result's block `t` is row `10000 t + p` of the result array. -/
theorem emb6_9_row (t : Fin cfg6.N) (j : S10000x1.Idx) :
    ((((cfg6.win 9).blk t).view.emb j) 0).val = t.val * 10000 + (j 0).val := by
  obtain ⟨e00, e01, e10, e11, e20, e21, e30, e31, e40, e41, e50, e51, e60, e61, e70, e71, e80, e81, e90, e91⟩ :=
    index_facts6 t
  show win6_9.index t (0 : Fin 2) * 10000 + 1 * (j 0).val = _
  omega

/-- What point `t` writes back is block `t` of the specification's array. -/
theorem flushed6_eq (c : Dev nD) (t : Fin cfg6.N) :
    (dat6 (F := Ideal) V c).flushed 9 t = ((cfg6.win 9).blk t).view.read (Elt Ideal)
      (Cert.Spec.head (V c main_v76 : S100000x10.Idx → EReal) (V c main_v75 : S100000x64.Idx → EReal) (V c main_arg8 : S10x32.Idx → EReal) (V c main_v79 : S1x32.Idx → EReal) (V c main_v77 : S64x64.Idx → EReal) (V c main_v78 : S32x64.Idx → EReal) (V c main_v80 : S1x64.Idx → EReal) (V c main_arg12 : S64x1.Idx → EReal) (V c main_v81 : S1x1.Idx → EReal)) := by
  show (cfg6.win 9).cut (grid6.coords t) ((dat6 (F := Ideal) V c).after 9 t) = _
  rw [after6_9]
  unfold out6_9
  rw [View.canon_unit_zero zero_offsets6]
  simp only [View.ld_unit_zero (S := S10000x10) zero_offsets6, View.ld_unit_zero (S := S10000x64) zero_offsets6,
    View.ld_unit_zero (S := S10x32) zero_offsets6, View.ld_unit_zero (S := S1x32) zero_offsets6,
    View.ld_unit_zero (S := S64x64) zero_offsets6, View.ld_unit_zero (S := S32x64) zero_offsets6,
    View.ld_unit_zero (S := S1x64) zero_offsets6, View.ld_unit_zero (S := S64x1) zero_offsets6,
    View.ld_unit_zero (S := S1x1) zero_offsets6]
  funext j
  show k6_pay1 (k6_pay2 (iblk6 V c 0 t) (iblk6 V c 2 t) (iblk6 V c 3 t) (iblk6 V c 1 t) (iblk6 V c 4 t)
      (iblk6 V c 5 t) (iblk6 V c 6 t) (iblk6 V c 7 t)) (iblk6 V c 8 t) j
    = Cert.Spec.head (V c main_v76 : S100000x10.Idx → EReal) (V c main_v75 : S100000x64.Idx → EReal) (V c main_arg8 : S10x32.Idx → EReal) (V c main_v79 : S1x32.Idx → EReal) (V c main_v77 : S64x64.Idx → EReal) (V c main_v78 : S32x64.Idx → EReal) (V c main_v80 : S1x64.Idx → EReal) (V c main_arg12 : S64x1.Idx → EReal) (V c main_v81 : S1x1.Idx → EReal) (((cfg6.win 9).blk t).view.emb j)
  exact head_block6 (iblk6 V c 0 t) (iblk6 V c 1 t) (iblk6 V c 2 t) (iblk6 V c 3 t) (iblk6 V c 4 t)
    (iblk6 V c 5 t) (iblk6 V c 6 t) (iblk6 V c 7 t) (iblk6 V c 8 t)
    (V c main_v76) (V c main_v75) (V c main_arg8) (V c main_v79) (V c main_v77) (V c main_v78) (V c main_v80)
    (V c main_arg12) (V c main_v81) j (((cfg6.win 9).blk t).view.emb j)
    (fun d => iblk6_0_apply V c t (j 0) d _ (emb6_9_row t j) rfl)
    (fun d => iblk6_1_apply V c t (j 0) d _ (emb6_9_row t j) rfl)
    (iblk6_2_apply V c t) (iblk6_3_apply V c t) (iblk6_4_apply V c t) (iblk6_5_apply V c t)
    (iblk6_6_apply V c t) (iblk6_7_apply V c t) (iblk6_8_apply V c t)

/-- An index of the result array is in point `t`'s block iff each coordinate is in the block's range on its axis. -/
theorem mem_block6 (t : Fin cfg6.N) (i : S100000x1.Idx) :
    i ∈ ((cfg6.win 9).blk t).view.set ↔ ∀ a : Fin 2, win6_9.index t a * S10000x1.size a ≤ (i a).val
      ∧ (i a).val < win6_9.index t a * S10000x1.size a + S10000x1.size a := by
  show i ∈ ((View.whole main_v82).slice (win6_9.rect t)).set ↔ _
  rw [View.set_slice_whole, Rect.mem_set_unit]
  exact Iff.rfl

/-- Every entry of the result is written: row `r` lies in the block of point `r / 10000`. -/
theorem cover6 (i : S100000x1.Idx) :
    ∃ t : Fin cfg6.N, (cfg6.win 9).flush t = true ∧ i ∈ ((cfg6.win 9).blk t).view.set := by
  have hi0 : (i 0).val < 100000 := (i 0).isLt
  have hi1 : (i 1).val < 1 := (i 1).isLt
  have hN : cfg6.N = 10 := N_6
  let t : Fin cfg6.N := ⟨(i 0).val / 10000, by rw [hN]; omega⟩
  have ht : t.val = (i 0).val / 10000 := rfl
  refine ⟨t, flush6_9 t, ?_⟩
  rw [mem_block6]
  obtain ⟨e00, e01, e10, e11, e20, e21, e30, e31, e40, e41, e50, e51, e60, e61, e70, e71, e80, e81, e90, e91⟩ :=
    index_facts6 t
  intro a
  match a with
  | ⟨0, _⟩ => show win6_9.index t (0 : Fin 2) * 10000 ≤ (i 0).val ∧ (i 0).val < win6_9.index t (0 : Fin 2) * 10000 + 10000; omega
  | ⟨1, _⟩ => show win6_9.index t (1 : Fin 2) * 1 ≤ (i 1).val ∧ (i 1).val < win6_9.index t (1 : Fin 2) * 1 + 1; omega

/-- The result array of region 6, when the region is left, is the head of the nine arrays it found. -/
theorem region6_value (c : Dev nD) :
    ((dat6 (F := Ideal) V c).arrAt 9 cfg6.N : S100000x1.Idx → EReal)
      = Cert.Spec.head (V c main_v76 : S100000x10.Idx → EReal) (V c main_v75 : S100000x64.Idx → EReal) (V c main_arg8 : S10x32.Idx → EReal) (V c main_v79 : S1x32.Idx → EReal) (V c main_v77 : S64x64.Idx → EReal) (V c main_v78 : S32x64.Idx → EReal) (V c main_v80 : S1x64.Idx → EReal) (V c main_arg12 : S64x1.Idx → EReal) (V c main_v81 : S1x1.Idx → EReal) :=
  (dat6 (F := Ideal) V c).arrAt_eq_of_cover 9
    (Cert.Spec.head (V c main_v76 : S100000x10.Idx → EReal) (V c main_v75 : S100000x64.Idx → EReal) (V c main_arg8 : S10x32.Idx → EReal) (V c main_v79 : S1x32.Idx → EReal) (V c main_v77 : S64x64.Idx → EReal) (V c main_v78 : S32x64.Idx → EReal) (V c main_v80 : S1x64.Idx → EReal) (V c main_arg12 : S64x1.Idx → EReal) (V c main_v81 : S1x1.Idx → EReal))
    (fun t _ => flushed6_eq V c t) (cover6)

end Cert.KernelIdeal.RegionValue

end
-- ==== Proof.KernelValue.lean ====
/-
  The idealized kernel's result as the model's function of the arguments.

  @main of the kernel program is fifteen segments: host stretches and seven regions. Reading the buffer contents at
  the boundaries forwards from the launch: the edge arrays (sources, targets, factors) are the reference's stage
  functions of the edge list; region 0 leaves `x · W₁`; the next stretch leaves the propagation step of it and the
  bias as a row; region 1 leaves the first layer `h₁`; region 2 `h₁ · W₂`; and so on through the third layer; the
  last stretch before the head slices the features and the fusion weights and lays the three head biases out as rows;
  region 6 leaves the head of all that, and the final reshape drops its unit axis. Every step is one of: a region's
  value (the region modules), a host stretch read from its entry contents (the host module), or a buffer carried
  unchanged across segments that do not write it (the fold module).
-/
import proofs.«132266_j64192581206382_1_alg».proof.Proof.KernelKeep
import proofs.«132266_j64192581206382_1_alg».proof.Proof.KernelHost
import proofs.«132266_j64192581206382_1_alg».proof.Proof.RegionMatmul0
import proofs.«132266_j64192581206382_1_alg».proof.Proof.RegionMatmul2
import proofs.«132266_j64192581206382_1_alg».proof.Proof.RegionMatmul4
import proofs.«132266_j64192581206382_1_alg».proof.Proof.RegionBiasRelu1
import proofs.«132266_j64192581206382_1_alg».proof.Proof.RegionBiasRelu3
import proofs.«132266_j64192581206382_1_alg».proof.Proof.RegionBiasRelu5
import proofs.«132266_j64192581206382_1_alg».proof.Proof.RegionHead6

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The edge arrays -/

theorem sources1 : W1 m ρ c (Proc.devRef .tc main_v3) = Cert.ReferenceIdeal.ReadP.val_main_v3 (F := Ideal) (m ((c : Thread nD τ).loc main_arg1)) := sources_eq (W0 m ρ c)
theorem targets1 : W1 m ρ c (Proc.devRef .tc main_v6) = Cert.ReferenceIdeal.ReadP.val_main_v6 (F := Ideal) (m ((c : Thread nD τ).loc main_arg1)) := targets_eq (W0 m ρ c)
theorem dinv2 : W2 m ρ c (Proc.devRef .tc main_v14) = Cert.ReferenceIdeal.ReadP.val_main_v14 (F := Ideal) (m ((c : Thread nD τ).loc main_arg1)) :=
  dinv_eq (W1 m ρ c) (m ((c : Thread nD τ).loc main_arg1)) (positive_eq (W0 m ρ c)) (rsqrt_eq (W0 m ρ c)) (zero_eq (W0 m ρ c))
theorem sources2 : W2 m ρ c (Proc.devRef .tc main_v3) = Cert.ReferenceIdeal.ReadP.val_main_v3 (F := Ideal) (m ((c : Thread nD τ).loc main_arg1)) := by
  refine Eq.trans ?_ (sources1 m ρ c); host_step; rfl
theorem targets2 : W2 m ρ c (Proc.devRef .tc main_v6) = Cert.ReferenceIdeal.ReadP.val_main_v6 (F := Ideal) (m ((c : Thread nD τ).loc main_arg1)) := by
  refine Eq.trans ?_ (targets1 m ρ c); host_step; rfl
theorem factors3 : W3 m ρ c (Proc.devRef .tc main_v30) = Cert.ReferenceIdeal.ReadP.val_main_v38 (F := Ideal) (m ((c : Thread nD τ).loc main_arg1)) :=
  factor_eq (W2 m ρ c) (m ((c : Thread nD τ).loc main_arg1)) (dinv2 m ρ c) (sources2 m ρ c) (targets2 m ρ c)

/-! ## The first layer -/

theorem prod1 : W4 m ρ c (Proc.devRef .tc main_v31) = Cert.Spec.mm (m ((c : Thread nD τ).loc main_arg0)) (m ((c : Thread nD τ).loc main_arg2)) := by
  refine (W4_arr m ρ c 2).trans ((Cert.KernelIdeal.RegionValue.region0_value (V3 m ρ) c).trans ?_)
  rw [show V3 m ρ c main_arg0 = _ from W3_arg0 m ρ c, show V3 m ρ c main_arg2 = _ from W3_arg2 m ρ c]

theorem agg1 : W5 m ρ c (Proc.devRef .tc main_v43) = Cert.Model.agg128 (Cert.Spec.mm (m ((c : Thread nD τ).loc main_arg0)) (m ((c : Thread nD τ).loc main_arg2))) (m ((c : Thread nD τ).loc main_arg1)) :=
  (agg1_eq (W4 m ρ c) (m ((c : Thread nD τ).loc main_arg1)) ((W4_v3 m ρ c).trans (sources1 m ρ c)) ((W4_v6 m ρ c).trans (targets1 m ρ c))
    ((W4_v30 m ρ c).trans (factors3 m ρ c))).trans (congrArg (Cert.Model.agg128 · (m ((c : Thread nD τ).loc main_arg1))) (prod1 m ρ c))

theorem row1 : W5 m ρ c (Proc.devRef .tc main_v44) = Cert.ReferenceIdeal.ReadP.val_main_v44 (F := Ideal) (m ((c : Thread nD τ).loc main_arg3)) :=
  (row1_eq (W4 m ρ c)).trans (congrArg _ (W4_arg3 m ρ c))

theorem layer1 : W6 m ρ c (Proc.devRef .tc main_v45) = Cert.Model.h1 (m ((c : Thread nD τ).loc main_arg0)) (m ((c : Thread nD τ).loc main_arg1)) (m ((c : Thread nD τ).loc main_arg2)) (m ((c : Thread nD τ).loc main_arg3)) := by
  refine (W6_arr m ρ c 2).trans ((Cert.KernelIdeal.RegionValue.region1_value (V5 m ρ) c).trans ?_)
  rw [show V5 m ρ c main_v43 = _ from agg1 m ρ c, show V5 m ρ c main_v44 = _ from row1 m ρ c]
  rfl

/-! ## The second layer -/

theorem prod2 : W7 m ρ c (Proc.devRef .tc main_v46) = Cert.Spec.mm (Cert.Model.h1 (m ((c : Thread nD τ).loc main_arg0)) (m ((c : Thread nD τ).loc main_arg1)) (m ((c : Thread nD τ).loc main_arg2)) (m ((c : Thread nD τ).loc main_arg3))) (m ((c : Thread nD τ).loc main_arg4)) := by
  refine (W7_arr m ρ c 2).trans ((Cert.KernelIdeal.RegionValue.region2_value (V6 m ρ) c).trans ?_)
  rw [show V6 m ρ c main_v45 = _ from layer1 m ρ c, show V6 m ρ c main_arg4 = _ from W6_arg4 m ρ c]

theorem agg2 : W8 m ρ c (Proc.devRef .tc main_v58) = Cert.Model.agg128 (Cert.Spec.mm (Cert.Model.h1 (m ((c : Thread nD τ).loc main_arg0)) (m ((c : Thread nD τ).loc main_arg1)) (m ((c : Thread nD τ).loc main_arg2)) (m ((c : Thread nD τ).loc main_arg3))) (m ((c : Thread nD τ).loc main_arg4))) (m ((c : Thread nD τ).loc main_arg1)) :=
  (agg2_eq (W7 m ρ c) (m ((c : Thread nD τ).loc main_arg1)) ((W7_v3 m ρ c).trans (sources1 m ρ c)) ((W7_v6 m ρ c).trans (targets1 m ρ c))
    ((W7_v30 m ρ c).trans (factors3 m ρ c))).trans (congrArg (Cert.Model.agg128 · (m ((c : Thread nD τ).loc main_arg1))) (prod2 m ρ c))

theorem row2 : W8 m ρ c (Proc.devRef .tc main_v59) = Cert.ReferenceIdeal.ReadP.val_main_v62 (F := Ideal) (m ((c : Thread nD τ).loc main_arg5)) :=
  (row2_eq (W7 m ρ c)).trans (congrArg _ (W7_arg5 m ρ c))

theorem layer2 : W9 m ρ c (Proc.devRef .tc main_v60) = Cert.Model.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Cert.KernelIdeal.RegionValue.region3_value (V8 m ρ) c).trans ?_)
  rw [show V8 m ρ c main_v58 = _ from agg2 m ρ c, show V8 m ρ c main_v59 = _ from row2 m ρ c]
  rfl

/-! ## The third layer -/

theorem prod3 : W10 m ρ c (Proc.devRef .tc main_v61) = Cert.Spec.mm (Cert.Model.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine (W10_arr m ρ c 2).trans ((Cert.KernelIdeal.RegionValue.region4_value (V9 m ρ) c).trans ?_)
  rw [show V9 m ρ c main_v60 = _ from layer2 m ρ c, show V9 m ρ c main_arg6 = _ from W9_arg6 m ρ c]

theorem agg3 : W11 m ρ c (Proc.devRef .tc main_v73) = Cert.Model.agg64 (Cert.Spec.mm (Cert.Model.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) :=
  (agg3_eq (W10 m ρ c) (m ((c : Thread nD τ).loc main_arg1)) ((W10_v3 m ρ c).trans (sources1 m ρ c)) ((W10_v6 m ρ c).trans (targets1 m ρ c))
    ((W10_v30 m ρ c).trans (factors3 m ρ c))).trans (congrArg (Cert.Model.agg64 · (m ((c : Thread nD τ).loc main_arg1))) (prod3 m ρ c))

theorem row3 : W11 m ρ c (Proc.devRef .tc main_v74) = Cert.ReferenceIdeal.ReadP.val_main_v80 (F := Ideal) (m ((c : Thread nD τ).loc main_arg7)) :=
  (row3_eq (W10 m ρ c)).trans (congrArg _ (W10_arg7 m ρ c))

theorem layer3 : W12 m ρ c (Proc.devRef .tc main_v75) = Cert.Model.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((Cert.KernelIdeal.RegionValue.region5_value (V11 m ρ) c).trans ?_)
  rw [show V11 m ρ c main_v73 = _ from agg3 m ρ c, show V11 m ρ c main_v74 = _ from row3 m ρ c]
  rfl

/-! ## The head and the result -/

/-- The head is a function of its nine operands. -/
theorem head_congr {a : ℕ} {xl xl' : (⟨2, ![a, 10]⟩ : Shape).Idx → EReal} {h h' : (⟨2, ![a, 64]⟩ : Shape).Idx → EReal}
    {wp wp' : (⟨2, ![10, 32]⟩ : Shape).Idx → EReal} {bp bp' : (⟨2, ![1, 32]⟩ : Shape).Idx → EReal}
    {wfh wfh' : (⟨2, ![64, 64]⟩ : Shape).Idx → EReal} {wfp wfp' : (⟨2, ![32, 64]⟩ : Shape).Idx → EReal}
    {bf bf' : (⟨2, ![1, 64]⟩ : Shape).Idx → EReal} {wr wr' : (⟨2, ![64, 1]⟩ : Shape).Idx → EReal}
    {br br' : (⟨2, ![1, 1]⟩ : Shape).Idx → EReal}
    (e0 : xl = xl') (e1 : h = h') (e2 : wp = wp') (e3 : bp = bp') (e4 : wfh = wfh') (e5 : wfp = wfp') (e6 : bf = bf')
    (e7 : wr = wr') (e8 : br = br') :
    Cert.Spec.head xl h wp bp wfh wfp bf wr br = Cert.Spec.head xl' h' wp' bp' wfh' wfp' bf' wr' br' := by
  subst e0 e1 e2 e3 e4 e5 e6 e7 e8; rfl

theorem headOut : W14 m ρ c (Proc.devRef .tc main_v82)
    = Cert.Spec.head (Cert.ReferenceIdeal.ReadP.val_main_v84 (F := Ideal) (m ((c : Thread nD τ).loc main_arg0))) (Cert.Model.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))
        (Cert.ReferenceIdeal.ReadP.val_main_v86 (F := Ideal) (m ((c : Thread nD τ).loc main_arg9))) (Cert.Model.wfTop (m ((c : Thread nD τ).loc main_arg10))) (Cert.Model.wfBot (m ((c : Thread nD τ).loc main_arg10)))
        (Cert.ReferenceIdeal.ReadP.val_main_v92 (F := Ideal) (m ((c : Thread nD τ).loc main_arg11))) (m ((c : Thread nD τ).loc main_arg12)) (Cert.ReferenceIdeal.ReadP.val_main_v97 (F := Ideal) (m ((c : Thread nD τ).loc main_arg13))) := by
  refine (W14_arr m ρ c 9).trans ((Cert.KernelIdeal.RegionValue.region6_value (V13 m ρ) c).trans ?_)
  have e0 : V13 m ρ c main_v76 = Cert.ReferenceIdeal.ReadP.val_main_v84 (F := Ideal) (m ((c : Thread nD τ).loc main_arg0)) :=
    (last10_eq (W12 m ρ c)).trans (congrArg (Cert.ReferenceIdeal.ReadP.val_main_v84 (F := Ideal)) (W12_arg0 m ρ c))
  have e1 : V13 m ρ c main_v75 = Cert.Model.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    (W13_v75 m ρ c).trans (layer3 m ρ c)
  have e2 : V13 m ρ c main_arg8 = (m ((c : Thread nD τ).loc main_arg8)) := W13_arg8 m ρ c
  have e3 : V13 m ρ c main_v79 = Cert.ReferenceIdeal.ReadP.val_main_v86 (F := Ideal) (m ((c : Thread nD τ).loc main_arg9)) :=
    (rowP_eq (W12 m ρ c)).trans (congrArg (Cert.ReferenceIdeal.ReadP.val_main_v86 (F := Ideal)) (W12_arg9 m ρ c))
  have e4 : V13 m ρ c main_v77 = Cert.Model.wfTop (m ((c : Thread nD τ).loc main_arg10)) :=
    (wfTop_eq (W12 m ρ c)).trans (congrArg Cert.Model.wfTop (W12_arg10 m ρ c))
  have e5 : V13 m ρ c main_v78 = Cert.Model.wfBot (m ((c : Thread nD τ).loc main_arg10)) :=
    (wfBot_eq (W12 m ρ c)).trans (congrArg Cert.Model.wfBot (W12_arg10 m ρ c))
  have e6 : V13 m ρ c main_v80 = Cert.ReferenceIdeal.ReadP.val_main_v92 (F := Ideal) (m ((c : Thread nD τ).loc main_arg11)) :=
    (rowF_eq (W12 m ρ c)).trans (congrArg (Cert.ReferenceIdeal.ReadP.val_main_v92 (F := Ideal)) (W12_arg11 m ρ c))
  have e7 : V13 m ρ c main_arg12 = (m ((c : Thread nD τ).loc main_arg12)) := W13_arg12 m ρ c
  have e8 : V13 m ρ c main_v81 = Cert.ReferenceIdeal.ReadP.val_main_v97 (F := Ideal) (m ((c : Thread nD τ).loc main_arg13)) :=
    (rowR_eq (W12 m ρ c)).trans (congrArg (Cert.ReferenceIdeal.ReadP.val_main_v97 (F := Ideal)) (W12_arg13 m ρ c))
  exact head_congr e0 e1 e2 e3 e4 e5 e6 e7 e8

/-- The kernel's result buffer at the end of @main is the model's function of the launch contents of the arguments. -/
theorem kernel_value : W15 m ρ c (Proc.devRef .tc main_v83) = Cert.Model.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (out_eq (W14 m ρ c)).trans ?_
  rw [headOut m ρ c]
  rfl

end Cert.KernelIdeal.Fold

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.RefLayers.lean ====
import proofs.«132266_j64192581206382_1_alg».proof.Proof.Model
import proofs.«132266_j64192581206382_1_alg».proof.Proof.LibHostRead

/-!
  The three layers of the reference program, as whole arrays.

  Each layer of the reference is a matrix product, a propagation step over the graph (a gather of rows, a scaling by
  the edges' factors, an accumulating scatter), a bias row added to every row, and a clamp below at zero.  Read as whole
  arrays: the product is the specification's `mm`, the propagation step is the model's `agg128` / `agg64` applied to the
  product (the same two host operations over the same index arrays, never opened), and bias and clamp are the
  specification's `biasRelu`.  So the value the reference holds after each layer is the model's `h1`, `h2`, `h3`.
-/

noncomputable section

open scoped BigOperators

namespace Cert.ReferenceIdeal.RefValue

open Cert.ReferenceIdeal Cert.ReferenceIdeal.Gen Cert.ReferenceIdeal.ReadP
open Idealize.ShloMosaic Idealize.ShloMosaic.ValueIdx

/-! ### Two steps every layer shares, over any extents -/

/-- A host product contracting axis 1 of the left operand with axis 0 of the right one is the matrix product, as a
    whole array. -/
theorem dot_eq_mm {a k b : ℕ} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ .f32) (w : FVec Ideal ⟨2, ![k, b]⟩ .f32) :
    Host.dotGeneral D prec x w = Cert.Spec.mm x w := by
  funext i
  obtain ⟨p, q, rfl⟩ : ∃ (p : Fin a) (q : Fin b), i = ix2 p q := ⟨i 0, i 1, eq_ix2 i⟩
  exact Cert.HostRead.dotGeneral_ix2_apply D hlc hrc hln hrn hlb hrb prec x w p q

/-- A one-row array broadcast down the rows and added, then the maximum with the broadcast zero word, is the
    specification's bias-and-clamp, as a whole array. -/
theorem bias_relu_eq {a b : ℕ} (y : FVec Ideal ⟨2, ![a, b]⟩ .f32) (r : FVec Ideal ⟨2, ![1, b]⟩ .f32)
    (h2 : (⟨2, ![1, b]⟩ : Shape).BroadcastsInDim ⟨2, ![a, b]⟩ ![0, 1])
    (h0 : (⟨0, ![]⟩ : Shape).BroadcastsInDim ⟨2, ![a, b]⟩ ![]) :
    maximumf (addf y (broadcastInDim ⟨2, ![a, b]⟩ ![0, 1] h2 r))
        (broadcastInDim ⟨2, ![a, b]⟩ ![] h0 (constant (F := Ideal) ⟨0, ![]⟩ .f32 0x00000000#32))
      = Cert.Spec.biasRelu y r := by
  funext i
  obtain ⟨p, q, rfl⟩ : ∃ (p : Fin a) (q : Fin b), i = ix2 p q := ⟨i 0, i 1, eq_ix2 i⟩
  refine (maximumf_apply _ _ (ix2 p q)).trans ?_
  show max _ _ = max (y (ix2 p q) + r (ix2 (0 : Fin 1) q)) (Ideal.ofBits .f32 0x00000000#32)
  refine congrArg₂ max ?_ ?_
  · refine (addf_apply _ _ (ix2 p q)).trans ?_
    refine congrArg (y (ix2 p q) + ·) ?_
    refine broadcastInDim_apply ![0, 1] h2 r (ix2 p q) (ix2 (0 : Fin 1) q) (fun ax => ?_)
    match ax with
    | ⟨0, _⟩ => show (0 : ℕ) = if (1 : ℕ) = 1 then 0 else p.val; rw [if_pos rfl]
    | ⟨1, _⟩ =>
      show q.val = if b = 1 then 0 else q.val
      split
      · have := q.isLt; omega
      · rfl
  · exact Cert.HostRead.scalar_bcast_apply h0 _ (ix2 p q)

/-! ### The reference's arrays, layer by layer -/

variable (x0 : FVec Ideal S100000x66 .f32) (x1 : Cert.Model.Edges) (x2 : FVec Ideal S66x128 .f32) (x3 : FVec Ideal S128 .f32)
  (x4 : FVec Ideal S128x128 .f32) (x5 : FVec Ideal S128 .f32) (x6 : FVec Ideal S128x64 .f32) (x7 : FVec Ideal S64 .f32)

/-! #### The first layer -/

/-- The first product is `x · W₁`. -/
theorem v30_eq : val_main_v30 (F := Ideal) x0 x2 = Cert.Spec.mm x0 x2 := by
  unfold val_main_v30
  exact dot_eq_mm _ rfl rfl rfl rfl rfl rfl none x0 x2

/-- The first propagation step is the model's step applied to the first product: the same gather, scaling and
    accumulating scatter over the same index arrays. -/
theorem v43_eq : val_main_v43 (F := Ideal) x0 x1 x2 = Cert.Model.agg128 (val_main_v30 (F := Ideal) x0 x2) x1 := by
  unfold val_main_v43 val_main_v40 val_main_v37 Cert.Model.agg128
  rfl

/-- After the first layer the reference holds `h₁`. -/
theorem h1_eq : val_main_v47 (F := Ideal) x0 x1 x2 x3 = Cert.Model.h1 x0 x1 x2 x3 := by
  unfold val_main_v47 val_main_v46 val_main_v45 val_main_call1_v0 val_main_call1_cst Cert.Model.h1
  rw [v43_eq, v30_eq]
  exact bias_relu_eq _ _ _ _

/-! #### The second layer

The second step's index arrays and zero array are other buffers of the reference, computed by the same operations from
the edge list as the first step's: equal as terms. -/

theorem v59_eq : val_main_v59 (F := Ideal) = val_main_v41 (F := Ideal) := by
  unfold val_main_v59 val_main_v41 val_main_cst_11 val_main_cst_8
  rfl

theorem v60_eq : val_main_v60 (F := Ideal) x1 = val_main_v42 (F := Ideal) x1 := by
  unfold val_main_v60 val_main_v42
  rfl

theorem v57_eq : val_main_v57 (F := Ideal) x1 = val_main_v39 (F := Ideal) x1 := by
  unfold val_main_v57 val_main_v56 val_main_v39 val_main_v38
  rfl

theorem v54_eq : val_main_v54 (F := Ideal) x1 = val_main_v36 (F := Ideal) x1 := by
  unfold val_main_v54 val_main_v53 val_main_v52 val_main_v51 val_main_v50 val_main_v49 val_main_c_9 val_main_c_10
    val_main_v36 val_main_v35 val_main_v34 val_main_v33 val_main_v32 val_main_v31 val_main_c_6 val_main_c_7
  rfl

/-- The second product is `h₁ · W₂`. -/
theorem v48_eq : val_main_v48 (F := Ideal) x0 x1 x2 x3 x4 = Cert.Spec.mm (Cert.Model.h1 x0 x1 x2 x3) x4 := by
  unfold val_main_v48
  rw [h1_eq]
  exact dot_eq_mm _ rfl rfl rfl rfl rfl rfl none _ x4

/-- The second propagation step is the model's step applied to the second product. -/
theorem v61_eq : val_main_v61 (F := Ideal) x0 x1 x2 x3 x4
    = Cert.Model.agg128 (val_main_v48 (F := Ideal) x0 x1 x2 x3 x4) x1 := by
  unfold val_main_v61 val_main_v58 val_main_v55 Cert.Model.agg128
  rw [v59_eq, v60_eq, v57_eq, v54_eq]

/-- After the second layer the reference holds `h₂`. -/
theorem h2_eq : val_main_v65 (F := Ideal) x0 x1 x2 x3 x4 x5 = Cert.Model.h2 x0 x1 x2 x3 x4 x5 := by
  unfold val_main_v65 val_main_v64 val_main_v63 val_main_call2_v0 val_main_call2_cst Cert.Model.h2
  rw [v61_eq, v48_eq]
  exact bias_relu_eq _ _ _ _

/-! #### The third layer -/

/-- The third product is `h₂ · W₃`. -/
theorem v66_eq : val_main_v66 (F := Ideal) x0 x1 x2 x3 x4 x5 x6 = Cert.Spec.mm (Cert.Model.h2 x0 x1 x2 x3 x4 x5) x6 := by
  unfold val_main_v66
  rw [h2_eq]
  exact dot_eq_mm _ rfl rfl rfl rfl rfl rfl none _ x6

/-- The third propagation step is the model's step at width 64 applied to the third product. -/
theorem v79_eq : val_main_v79 (F := Ideal) x0 x1 x2 x3 x4 x5 x6
    = Cert.Model.agg64 (val_main_v66 (F := Ideal) x0 x1 x2 x3 x4 x5 x6) x1 := by
  unfold val_main_v79 val_main_v76 val_main_v73 Cert.Model.agg64
  rfl

/-- After the third layer the reference holds `h₃`. -/
theorem h3_eq : val_main_v83 (F := Ideal) x0 x1 x2 x3 x4 x5 x6 x7 = Cert.Model.h3 x0 x1 x2 x3 x4 x5 x6 x7 := by
  unfold val_main_v83 val_main_v82 val_main_v81 val_main_call3_v0 val_main_call3_cst Cert.Model.h3
  rw [v79_eq, v66_eq]
  exact bias_relu_eq _ _ _ _

end Cert.ReferenceIdeal.RefValue

end
-- ==== Proof.LibLayerRead.lean ====
/-
  Reads of a dense layer's host operations at an index, at the exact extended-real values, for rank-2 arrays.

    • two arrays laid side by side along axis 1 read, at a column, the piece that holds the column;
    • an affine layer — a `dot_general` contracting axis 1 of the left operand with axis 0 of the right one, plus a bias
      of length b broadcast to a row [1, b] and then down the rows — reads at (p, q) the sum over the contracted
      coordinate of the products, plus the bias's entry q;
    • a leaky rectifier written as a select — the operand where it is at least the broadcast zero literal, a broadcast
      scalar times the operand elsewhere — reads at an index that select on the operand's entry.
-/
import Idealize.ShloMosaic.PureOps.Ideal.Laws
import Idealize.ShloMosaic.Lib.Pipeline.Value
import Idealize.ShloMosaic.Lib.ValueIdx
import proofs.«132266_j64192581206382_1_alg».proof.Proof.LibHostRead

noncomputable section

open scoped BigOperators

namespace Cert.LayerRead

open Idealize.ShloMosaic Idealize.ShloMosaic.ValueIdx

/-! ### Two pieces laid side by side -/

section Concat2
variable {α : Type} {E n₁ n₂ n : Nat} (x₁ : (⟨2, ![E, n₁]⟩ : Shape).Idx → α) (x₂ : (⟨2, ![E, n₂]⟩ : Shape).Idx → α)
  (h : Shape.Concatenates [(⟨2, ![E, n₁]⟩ : Shape), ⟨2, ![E, n₂]⟩] ⟨2, ![E, n]⟩ 1)

/-- Two arrays side by side along axis 1, at a column of the first. -/
theorem concat2_apply_fst (p : Fin E) (c : Fin n) (hc : c.val < n₁) :
    concatenate ⟨2, ![E, n]⟩ 1 [⟨⟨2, ![E, n₁]⟩, x₁⟩, ⟨⟨2, ![E, n₂]⟩, x₂⟩] h (ix2 p c) = x₁ (ix2 p ⟨c.val, hc⟩) := by
  refine concatenate_apply_piece 1 [⟨⟨2, ![E, n₁]⟩, x₁⟩, ⟨⟨2, ![E, n₂]⟩, x₂⟩] h (ix2 p c) 0 (by show 0 < 2; omega) _ x₁ rfl rfl 0 rfl
    (ix2 p ⟨c.val, hc⟩) (fun b => ?_) ?_
  · match b with
    | ⟨0, _⟩ => exact fun _ => rfl
    | ⟨1, _⟩ => exact fun hne => absurd rfl hne
  · show 0 + c.val = c.val; omega

/-- Two arrays side by side along axis 1, at a column of the second. -/
theorem concat2_apply_snd (p : Fin E) (c : Fin n) (h1 : n₁ ≤ c.val) (h2 : c.val - n₁ < n₂) :
    concatenate ⟨2, ![E, n]⟩ 1 [⟨⟨2, ![E, n₁]⟩, x₁⟩, ⟨⟨2, ![E, n₂]⟩, x₂⟩] h (ix2 p c) = x₂ (ix2 p ⟨c.val - n₁, h2⟩) := by
  refine concatenate_apply_piece 1 [⟨⟨2, ![E, n₁]⟩, x₁⟩, ⟨⟨2, ![E, n₂]⟩, x₂⟩] h (ix2 p c) 1 (by show 1 < 2; omega) _ x₂ rfl rfl n₁ rfl
    (ix2 p ⟨c.val - n₁, h2⟩) (fun b => ?_) ?_
  · match b with
    | ⟨0, _⟩ => exact fun _ => rfl
    | ⟨1, _⟩ => exact fun hne => absurd rfl hne
  · show n₁ + (c.val - n₁) = c.val; omega

/-- Two arrays side by side along axis 1, at any column: the first piece left of column n₁, the second from it on. -/
theorem concat2_apply (hn : n = n₁ + n₂) (p : Fin E) (c : Fin n) :
    concatenate ⟨2, ![E, n]⟩ 1 [⟨⟨2, ![E, n₁]⟩, x₁⟩, ⟨⟨2, ![E, n₂]⟩, x₂⟩] h (ix2 p c)
      = if hc : c.val < n₁ then x₁ (ix2 p ⟨c.val, hc⟩) else x₂ (ix2 p ⟨c.val - n₁, by have := c.isLt; omega⟩) := by
  by_cases hc : c.val < n₁
  · rw [dif_pos hc]; exact concat2_apply_fst x₁ x₂ h p c hc
  · rw [dif_neg hc]; exact concat2_apply_snd x₁ x₂ h p c (by omega) (by have := c.isLt; omega)

end Concat2

/-! ### An affine layer -/

/-- A host product contracting axis 1 of the left operand with axis 0 of the right one, plus a bias broadcast to a row
    and then down the rows, read at (p, q). -/
theorem affine_apply {a k b : ℕ} {φ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (h1 : (⟨1, ![b]⟩ : Shape).BroadcastsInDim ⟨2, ![1, b]⟩ ![1])
    (h2 : (⟨2, ![1, b]⟩ : Shape).BroadcastsInDim ⟨2, ![a, b]⟩ ![0, 1])
    (x : FVec Ideal ⟨2, ![a, k]⟩ φ) (w : FVec Ideal ⟨2, ![k, b]⟩ φ) (bias : FVec Ideal ⟨1, ![b]⟩ φ)
    (p : Fin a) (q : Fin b) :
    addf (Host.dotGeneral D prec x w)
        (broadcastInDim ⟨2, ![a, b]⟩ ![0, 1] h2 (broadcastInDim ⟨2, ![1, b]⟩ ![1] h1 bias)) (ix2 p q)
      = (∑ d : Fin k, x (ix2 p d) * w (ix2 d q)) + bias (ix1 q) := by
  rw [addf_apply, Cert.HostRead.dotGeneral_ix2_apply D hlc hrc hln hrn hlb hrb prec x w p q,
    Cert.HostRead.bias_rows_apply h1 h2 bias p q]

/-! ### A leaky rectifier -/

/-- The select between the operand (where it is at least the broadcast zero literal) and a broadcast scalar times the
    operand, at an index. -/
theorem leaky_apply {s : Shape} (v : FVec Ideal s .f32) (c : FVec Ideal ⟨0, ![]⟩ .f32)
    (h0 h0' : (⟨0, ![]⟩ : Shape).BroadcastsInDim s (![] : Fin 0 → Fin s.rank)) (i : s.Idx) :
    select (cmpf .oge v (broadcastInDim s ![] h0 (constant (F := Ideal) ⟨0, ![]⟩ .f32 0x00000000#32))) v
        (mulf (broadcastInDim s ![] h0' c) v) i
      = Scalar.select (Ideal.cmp .oge (v i) (Ideal.ofBits .f32 0x00000000#32)) (v i) (c ix0 * v i) := by
  rw [select_apply, cmpf_apply, mulf_apply, Cert.HostRead.scalar_bcast_apply h0, Cert.HostRead.scalar_bcast_apply h0']
  rfl

end Cert.LayerRead

end
-- ==== Proof.RefHead.lean ====
/-
  The dense head of the reference program, as one function of its inputs.

  After the three graph layers the reference program projects ten of the input features (a product, a bias, a
  clamp at zero), lays the projection beside the third layer's output, multiplies the 96 columns by the fusion
  weights, adds a bias and clamps, multiplies by the one-column regression weights, adds a bias, and applies the
  logistic function written out as one over one plus the exponential of the negation. Read as whole arrays:
    • each product is the matrix product of the specification;
    • each bias-and-clamp is the specification's bias-and-clamp;
    • the product of the two arrays laid side by side with the `[96, 64]` weights is the sum of two partial
      products, the first 64 columns with rows 0 … 63 of the weights and the last 32 columns with rows 64 … 95
      (a sum over 96 = 64 + 32 terms split in two);
    • the quotient of one by one plus the exponential of the negation is the logistic function, the word of the
      float one denoting the real one.
  Together: the head of the reference program is the specification's head of the sliced features, the third
  layer's output (left as it is here), and the weights and biases.
-/
import proofs.«132266_j64192581206382_1_alg».proof.Proof.Model
import proofs.«132266_j64192581206382_1_alg».proof.Proof.LibHostRead
import proofs.«132266_j64192581206382_1_alg».proof.Proof.LibLayerRead

noncomputable section

open scoped BigOperators

namespace Cert.ReferenceIdeal.RefValue

/-! ## Whole-array readings, for any extents -/

namespace Head

open Idealize.ShloMosaic Idealize.ShloMosaic.ValueIdx

/-- A host product contracting axis 1 of the left operand with axis 0 of the right one is, as a whole array, the
    specification's matrix product. -/
theorem dot_eq_mm {a k b : ℕ} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ .f32) (w : FVec Ideal ⟨2, ![k, b]⟩ .f32) :
    Host.dotGeneral D prec x w = Cert.Spec.mm x w := by
  funext i
  obtain ⟨p, q, rfl⟩ : ∃ (p : Fin a) (q : Fin b), i = ix2 p q := ⟨i 0, i 1, eq_ix2 i⟩
  exact Cert.HostRead.dotGeneral_ix2_apply D hlc hrc hln hrn hlb hrb prec x w p q

/-- A one-row array broadcast down the rows reads, at `(p, q)`, its entry `(0, q)`. -/
theorem row_bcast_apply {α : Type} {a b : ℕ} (h2 : (⟨2, ![1, b]⟩ : Shape).BroadcastsInDim ⟨2, ![a, b]⟩ ![0, 1])
    (r : (⟨2, ![1, b]⟩ : Shape).Idx → α) (p : Fin a) (q : Fin b) :
    broadcastInDim ⟨2, ![a, b]⟩ ![0, 1] h2 r (ix2 p q) = r (ix2 0 q) := by
  refine broadcastInDim_apply _ h2 r (ix2 p q) (ix2 0 q) fun ax => ?_
  match ax with
  | ⟨0, _⟩ => show 0 = if (1 : Nat) = 1 then 0 else p.val; rw [if_pos rfl]
  | ⟨1, _⟩ =>
    show q.val = if b = 1 then 0 else q.val
    split_ifs with hb
    · have := q.isLt; omega
    · rfl

/-- A bias row added to every row and the maximum with the broadcast zero word is, as a whole array, the
    specification's bias-and-clamp. -/
theorem biasRelu_eq {a b : ℕ} (h2 : (⟨2, ![1, b]⟩ : Shape).BroadcastsInDim ⟨2, ![a, b]⟩ ![0, 1])
    (h0 : (⟨0, ![]⟩ : Shape).BroadcastsInDim ⟨2, ![a, b]⟩ ![])
    (x : FVec Ideal ⟨2, ![a, b]⟩ .f32) (r : FVec Ideal ⟨2, ![1, b]⟩ .f32) :
    maximumf (addf x (broadcastInDim ⟨2, ![a, b]⟩ ![0, 1] h2 r))
        (broadcastInDim ⟨2, ![a, b]⟩ ![] h0 (constant (F := Ideal) ⟨0, ![]⟩ .f32 0x00000000#32))
      = Cert.Spec.biasRelu x r := by
  funext i
  obtain ⟨p, q, rfl⟩ : ∃ (p : Fin a) (q : Fin b), i = ix2 p q := ⟨i 0, i 1, eq_ix2 i⟩
  rw [maximumf_apply, addf_apply, Cert.HostRead.scalar_bcast_apply h0, row_bcast_apply h2 r p q]
  rfl

/-- The product of two arrays laid side by side (64 and 32 columns) with a `[96, b]` array is the sum of the two
    partial products: the first piece with rows 0 … 63 of the right operand, the second with rows 64 … 95. -/
theorem cat_mm_split {E b : ℕ} (x₁ : (⟨2, ![E, 64]⟩ : Shape).Idx → EReal) (x₂ : (⟨2, ![E, 32]⟩ : Shape).Idx → EReal)
    (h : Shape.Concatenates [(⟨2, ![E, 64]⟩ : Shape), ⟨2, ![E, 32]⟩] ⟨2, ![E, 96]⟩ 1)
    (w : (⟨2, ![96, b]⟩ : Shape).Idx → EReal)
    (hs₁ : (⟨2, ![96, b]⟩ : Shape).Slices ![0, 0] ⟨2, ![64, b]⟩)
    (hs₂ : (⟨2, ![96, b]⟩ : Shape).Slices ![64, 0] ⟨2, ![32, b]⟩) :
    Cert.Spec.mm (concatenate ⟨2, ![E, 96]⟩ 1 [⟨⟨2, ![E, 64]⟩, x₁⟩, ⟨⟨2, ![E, 32]⟩, x₂⟩] h) w
      = fun j => Cert.Spec.mm x₁ (extractStridedSlice ⟨2, ![64, b]⟩ ![0, 0] w hs₁) j
          + Cert.Spec.mm x₂ (extractStridedSlice ⟨2, ![32, b]⟩ ![64, 0] w hs₂) j := by
  funext i
  obtain ⟨p, q, rfl⟩ : ∃ (p : Fin E) (q : Fin b), i = ix2 p q := ⟨i 0, i 1, eq_ix2 i⟩
  show (∑ d : Fin (64 + 32), concatenate ⟨2, ![E, 96]⟩ 1 [⟨⟨2, ![E, 64]⟩, x₁⟩, ⟨⟨2, ![E, 32]⟩, x₂⟩] h (ix2 p d) * w (ix2 d q))
      = (∑ d : Fin 64, x₁ (ix2 p d) * extractStridedSlice ⟨2, ![64, b]⟩ ![0, 0] w hs₁ (ix2 d q))
        + ∑ e : Fin 32, x₂ (ix2 p e) * extractStridedSlice ⟨2, ![32, b]⟩ ![64, 0] w hs₂ (ix2 e q)
  refine (Fin.sum_univ_add _).trans ?_
  refine congrArg₂ (· + ·) (Finset.sum_congr rfl fun d _ => ?_) (Finset.sum_congr rfl fun e _ => ?_)
  · refine congrArg₂ (· * ·) (Cert.LayerRead.concat2_apply_fst x₁ x₂ h p (Fin.castAdd 32 d) d.isLt) ?_
    refine (extractStridedSlice_apply ![0, 0] w hs₁ (ix2 d q) (ix2 (Fin.castAdd 32 d) q) fun ax => ?_).symm
    match ax with
    | ⟨0, _⟩ => show d.val = 0 + d.val; omega
    | ⟨1, _⟩ => show q.val = 0 + q.val; omega
  · refine congrArg₂ (· * ·) ?_ ?_
    · refine (Cert.LayerRead.concat2_apply_snd x₁ x₂ h p (Fin.natAdd 64 e) (Nat.le_add_right 64 e.val)
        (by show 64 + e.val - 64 < 32; have := e.isLt; omega)).trans ?_
      refine congrArg x₂ (funext fun ax => Fin.ext ?_)
      match ax with
      | ⟨0, _⟩ => rfl
      | ⟨1, _⟩ => show 64 + e.val - 64 = e.val; omega
    · refine (extractStridedSlice_apply ![64, 0] w hs₂ (ix2 e q) (ix2 (Fin.natAdd 64 e) q) fun ax => ?_).symm
      match ax with
      | ⟨0, _⟩ => show 64 + e.val = 64 + e.val; rfl
      | ⟨1, _⟩ => show q.val = 0 + q.val; omega

/-- The quotient of one by one plus the exponential of the negation, the ones given by the word of the float one, is
    the logistic function. -/
theorem logistic_eq (y : EReal) :
    Ideal.div (Ideal.ofBits .f32 0x3F800000#32) (Ideal.ofBits .f32 0x3F800000#32 + Ideal.exp (-y)) = Ideal.logistic y := by
  rw [Cert.HostRead.ofBits_one_f32]
  rfl

/-- The host's printed form of the logistic function — one divided by one plus the exponential of the negated
    argument, the ones given by the word of the float one — at an argument that is a sum. -/
theorem logistic_host (y b : EReal) :
    FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp
            (FloatOps.hostNegf (F := Ideal) (φ := .f32) (FloatOps.addf (F := Ideal) (φ := .f32) y b))))
      = Ideal.logistic (y + b) :=
  logistic_eq (y + b)

end Head

/-! ## The reference program's head -/

open Idealize.ShloMosaic Idealize.ShloMosaic.ValueIdx Cert.ReferenceIdeal Cert.ReferenceIdeal.ReadP

/-- The projection of the ten sliced features: product, bias, clamp. -/
theorem proj_eq (x0 : FVec Ideal S100000x66 .f32) (x8 : FVec Ideal S10x32 .f32) (x9 : FVec Ideal S32 .f32) :
    val_main_v89 (F := Ideal) x0 x8 x9
      = Cert.Spec.biasRelu (Cert.Spec.mm (val_main_v84 (F := Ideal) x0) x8) (val_main_v86 (F := Ideal) x9) := by
  unfold val_main_v89 val_main_v88 val_main_v87 val_main_call4_v0 val_main_call4_cst val_main_v85
  rw [Head.dot_eq_mm dot_S100000x10_S10x32_S100000x32_1_0_0_1_n_n rfl rfl rfl rfl rfl rfl]
  exact Head.biasRelu_eq _ _ _ _

/-- The product of [third layer, projection] with the fusion weights: the sum of the two partial products. -/
theorem dense_eq (x0 : FVec Ideal S100000x66 .f32) (x1 : Cert.Model.Edges) (x2 : FVec Ideal S66x128 .f32) (x3 : FVec Ideal S128 .f32)
    (x4 : FVec Ideal S128x128 .f32) (x5 : FVec Ideal S128 .f32) (x6 : FVec Ideal S128x64 .f32) (x7 : FVec Ideal S64 .f32)
    (x8 : FVec Ideal S10x32 .f32) (x9 : FVec Ideal S32 .f32) (x10 : FVec Ideal S96x64 .f32) :
    val_main_v91 (F := Ideal) x0 x1 x2 x3 x4 x5 x6 x7 x8 x9 x10
      = fun j => Cert.Spec.mm (val_main_v83 (F := Ideal) x0 x1 x2 x3 x4 x5 x6 x7) (Cert.Model.wfTop x10) j
          + Cert.Spec.mm (val_main_v89 (F := Ideal) x0 x8 x9) (Cert.Model.wfBot x10) j := by
  unfold val_main_v91 val_main_v90 Cert.Model.wfTop Cert.Model.wfBot
  exact (Head.dot_eq_mm dot_S100000x96_S96x64_S100000x64_1_0_0_1_n_n rfl rfl rfl rfl rfl rfl none _ _).trans
    (Head.cat_mm_split _ _ _ _ _ _)

/-- The fused features: that product, bias, clamp. -/
theorem fuse_eq (x0 : FVec Ideal S100000x66 .f32) (x1 : Cert.Model.Edges) (x2 : FVec Ideal S66x128 .f32) (x3 : FVec Ideal S128 .f32)
    (x4 : FVec Ideal S128x128 .f32) (x5 : FVec Ideal S128 .f32) (x6 : FVec Ideal S128x64 .f32) (x7 : FVec Ideal S64 .f32)
    (x8 : FVec Ideal S10x32 .f32) (x9 : FVec Ideal S32 .f32) (x10 : FVec Ideal S96x64 .f32) (x11 : FVec Ideal S64 .f32) :
    val_main_v95 (F := Ideal) x0 x1 x2 x3 x4 x5 x6 x7 x8 x9 x10 x11
      = Cert.Spec.biasRelu (val_main_v91 (F := Ideal) x0 x1 x2 x3 x4 x5 x6 x7 x8 x9 x10) (val_main_v92 (F := Ideal) x11) := by
  unfold val_main_v95 val_main_v94 val_main_v93 val_main_call5_v0 val_main_call5_cst
  exact Head.biasRelu_eq _ _ _ _

/-- The regression product. -/
theorem out_eq (x0 : FVec Ideal S100000x66 .f32) (x1 : Cert.Model.Edges) (x2 : FVec Ideal S66x128 .f32) (x3 : FVec Ideal S128 .f32)
    (x4 : FVec Ideal S128x128 .f32) (x5 : FVec Ideal S128 .f32) (x6 : FVec Ideal S128x64 .f32) (x7 : FVec Ideal S64 .f32)
    (x8 : FVec Ideal S10x32 .f32) (x9 : FVec Ideal S32 .f32) (x10 : FVec Ideal S96x64 .f32) (x11 : FVec Ideal S64 .f32)
    (x12 : FVec Ideal S64x1 .f32) :
    val_main_v96 (F := Ideal) x0 x1 x2 x3 x4 x5 x6 x7 x8 x9 x10 x11 x12
      = Cert.Spec.mm (val_main_v95 (F := Ideal) x0 x1 x2 x3 x4 x5 x6 x7 x8 x9 x10 x11) x12 := by
  unfold val_main_v96
  exact Head.dot_eq_mm dot_S100000x64_S64x1_S100000x1_1_0_0_1_n_n rfl rfl rfl rfl rfl rfl none _ _

/-- The head of the reference program is the specification's head of the sliced features, the third layer's output,
    and the weights and biases. -/
theorem head_eq (x0 : FVec Ideal S100000x66 .f32) (x1 : Cert.Model.Edges) (x2 : FVec Ideal S66x128 .f32) (x3 : FVec Ideal S128 .f32)
    (x4 : FVec Ideal S128x128 .f32) (x5 : FVec Ideal S128 .f32) (x6 : FVec Ideal S128x64 .f32) (x7 : FVec Ideal S64 .f32)
    (x8 : FVec Ideal S10x32 .f32) (x9 : FVec Ideal S32 .f32) (x10 : FVec Ideal S96x64 .f32) (x11 : FVec Ideal S64 .f32)
    (x12 : FVec Ideal S64x1 .f32) (x13 : FVec Ideal S1 .f32) :
    Cert.ReferenceIdeal.ReadP.val_main_v105 (F := Ideal) x0 x1 x2 x3 x4 x5 x6 x7 x8 x9 x10 x11 x12 x13
      = Cert.Spec.head (Cert.ReferenceIdeal.ReadP.val_main_v84 (F := Ideal) x0)
          (Cert.ReferenceIdeal.ReadP.val_main_v83 (F := Ideal) x0 x1 x2 x3 x4 x5 x6 x7) x8
          (Cert.ReferenceIdeal.ReadP.val_main_v86 (F := Ideal) x9) (Cert.Model.wfTop x10) (Cert.Model.wfBot x10)
          (Cert.ReferenceIdeal.ReadP.val_main_v92 (F := Ideal) x11) x12
          (Cert.ReferenceIdeal.ReadP.val_main_v97 (F := Ideal) x13) := by
  funext i
  obtain ⟨p, q, rfl⟩ : ∃ (p : Fin 100000) (q : Fin 1), i = ix2 p q := ⟨i 0, i 1, eq_ix2 i⟩
  have hidx : idx_main_v98 (ix2 p q) = ix2 (0 : Fin 1) (0 : Fin 1) :=
    funext fun a => Fin.ext (by match a with | ⟨0, _⟩ => rfl | ⟨1, _⟩ => rfl)
  rw [val_main_v105_apply, val_main_v104_apply, val_main_cst_16_apply, val_main_v103_apply, val_main_v102_apply,
    val_main_cst_15_apply, val_main_v101_apply, val_main_v100_apply, val_main_v99_apply, val_main_v98_apply, hidx]
  refine (Head.logistic_host (val_main_v96 (F := Ideal) x0 x1 x2 x3 x4 x5 x6 x7 x8 x9 x10 x11 x12 (ix2 p q))
    (val_main_v97 (F := Ideal) x13 (ix2 (0 : Fin 1) (0 : Fin 1)))).trans ?_
  rw [out_eq, fuse_eq, dense_eq, proj_eq]
  rfl

end Cert.ReferenceIdeal.RefValue

end
-- ==== Proof.RefValue.lean ====
import proofs.«132266_j64192581206382_1_alg».proof.Proof.RefLayers
import proofs.«132266_j64192581206382_1_alg».proof.Proof.RefHead

/-!
  The reference program's result is the model's function of its fourteen arguments.

  The last operation of the reference reshapes the head's one column into a vector; the head is the specification's
  `head` of the third layer's array and the weights, and the third layer's array is the model's `h₃`.
-/

noncomputable section

namespace Cert.ReferenceIdeal.RefValue

open Cert.ReferenceIdeal Cert.ReferenceIdeal.Gen Cert.ReferenceIdeal.ReadP
open Idealize.ShloMosaic Idealize.ShloMosaic.ValueIdx

/-- The reference's result array is `G` of the arguments. -/
theorem result_eq (x0 : FVec Ideal S100000x66 .f32) (x1 : Cert.Model.Edges) (x2 : FVec Ideal S66x128 .f32)
    (x3 : FVec Ideal S128 .f32) (x4 : FVec Ideal S128x128 .f32) (x5 : FVec Ideal S128 .f32)
    (x6 : FVec Ideal S128x64 .f32) (x7 : FVec Ideal S64 .f32) (x8 : FVec Ideal S10x32 .f32) (x9 : FVec Ideal S32 .f32)
    (x10 : FVec Ideal S96x64 .f32) (x11 : FVec Ideal S64 .f32) (x12 : FVec Ideal S64x1 .f32) (x13 : FVec Ideal S1 .f32) :
    Cert.ReferenceIdeal.ReadP.val_main_v106 (F := Ideal) x0 x1 x2 x3 x4 x5 x6 x7 x8 x9 x10 x11 x12 x13
      = Cert.Model.G x0 x1 x2 x3 x4 x5 x6 x7 x8 x9 x10 x11 x12 x13 := by
  unfold val_main_v106 Cert.Model.G
  rw [head_eq, h3_eq]

end Cert.ReferenceIdeal.RefValue

end
-- ==== Proof.lean ====
/-
  The kernel and the reference compute one function.

  The kernel program evaluates a three-layer graph convolution network with a dense head: its dense steps — the three
  products `h · W`, the three bias-and-clamp steps and the fused head — are kernels run over ten blocks of 10000 rows,
  its gathers and accumulating scatters over the edges plain host operations. The reference is the same network
  written with whole-array operations. Read on the extended reals, where a change of float format is the identity, a
  product into a zero accumulator is a plain sum and the sum over the 96 concatenated columns is the sum over the
  first 64 plus the sum over the last 32, both end with the model's function `Cert.Model.G` of the fourteen argument
  arrays in their result buffer: `Cert.KernelIdeal.Fold.kernel_value` for the kernel, read off its run segment by
  segment, and `Cert.ReferenceIdeal.RefValue.result_eq` for the reference, read off its run operation by operation.
  No law used needs finiteness, so the precondition is never opened. The three frames are the programs' runs with the
  results forgotten; the idealization rewrote nothing, so there is nothing to preserve.
-/
import proofs.«132266_j64192581206382_1_alg».proof.Defs
import proofs.«132266_j64192581206382_1_alg».proof.Proof.Gen.Kernel
import proofs.«132266_j64192581206382_1_alg».proof.Proof.Gen.Kernel.Skeleton
import proofs.«132266_j64192581206382_1_alg».proof.Proof.Gen.Kernel.Launch
import proofs.«132266_j64192581206382_1_alg».proof.Proof.Gen.Kernel.Points
import proofs.«132266_j64192581206382_1_alg».proof.Proof.Gen.Kernel.Frame
import proofs.«132266_j64192581206382_1_alg».proof.Proof.Gen.KernelIdeal
import proofs.«132266_j64192581206382_1_alg».proof.Proof.Gen.KernelIdeal.Skeleton
import proofs.«132266_j64192581206382_1_alg».proof.Proof.Gen.KernelIdeal.Launch
import proofs.«132266_j64192581206382_1_alg».proof.Proof.Gen.KernelIdeal.Points
import proofs.«132266_j64192581206382_1_alg».proof.Proof.Gen.KernelIdeal.Frame
import proofs.«132266_j64192581206382_1_alg».proof.Proof.Gen.ReferenceIdeal
import proofs.«132266_j64192581206382_1_alg».proof.Proof.Gen.Pre_finite_inputs
import proofs.«132266_j64192581206382_1_alg».proof.Proof.KernelRun
import proofs.«132266_j64192581206382_1_alg».proof.Proof.KernelValue
import proofs.«132266_j64192581206382_1_alg».proof.Proof.RefRun
import proofs.«132266_j64192581206382_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the model's function of the kernel's argument arrays in the result buffer. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Fold.kernel_value m ρ c), (h c).2⟩)
      (Cert.KernelIdeal.Named.run_named (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨a0, a1, a2, a3, a4, a5, a6, a7, a8, a9, a10, a11, a12, a13⟩ := hagree c
  rw [Cert.ReferenceIdeal.ReadP.val_main_v106_eq, Cert.ReferenceIdeal.RefValue.result_eq,
    a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
